-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x256x128 : Shape := ⟨3, ![4, 256, 128]⟩
abbrev S1024x1024 : Shape := ⟨2, ![1024, 1024]⟩
abbrev S128x128 : Shape := ⟨2, ![128, 128]⟩
abbrev S128 : Shape := ⟨1, ![128]⟩
abbrev S_ : Shape := ⟨0, ![]⟩

class Facts : Prop where
  bcast_S_S4x256x128 : S_.BroadcastsInDim S4x256x128 (![] : Fin 0 → Fin S4x256x128.rank)
  reducesTo_S4x256x128_S_d0_1_2 : S4x256x128.ReducesTo [0, 1, 2] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S4x256x128 .f32) (main_arg1 : IVec S1024x1024 32) (main_arg2 : FVec F S128x128 .f32) (main_arg3 : FVec F S128 .f32) : IVec S_ 1 :=
  let main_v0 : FVec F S4x256x128 .f32 := Host.absf main_arg0
  let main_cst : FVec F S_ .f32 := constant S_ .f32 0x7F800000#32
  let main_v1 : FVec F S4x256x128 .f32 := broadcastInDim S4x256x128 ![] bcast_S_S4x256x128 main_cst
  let main_v2 : IVec S4x256x128 1 := cmpf .olt main_v0 main_v1
  let main_c : IVec S_ 1 := constantI S_ 1 1#1
  let main_v3 : IVec S_ 1 := (fun x v => Host.reduce IntOp.andi x v reducesTo_S4x256x128_S_d0_1_2 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S4x256x128 : Shape := ⟨3, ![4, 256, 128]⟩
abbrev S1024x1024 : Shape := ⟨2, ![1024, 1024]⟩
abbrev S128x128 : Shape := ⟨2, ![128, 128]⟩
abbrev S128 : Shape := ⟨1, ![128]⟩
abbrev S1024x128 : Shape := ⟨2, ![1024, 128]⟩
abbrev S1x128 : Shape := ⟨2, ![1, 128]⟩
abbrev S1024x1 : Shape := ⟨2, ![1024, 1]⟩

abbrev nBuf : Space → Nat
  | .hbm => 8
  | .vmem => 5
  | .smem => 0
  | _ => 0

abbrev bufTy : (tb : Table) → Fin (tcTables nBuf tb) → BufTy
  | .hbm, ⟨0, _⟩ => ⟨S4x256x128, .f32⟩
  | .hbm, ⟨1, _⟩ => ⟨S1024x1024, .i32⟩
  | .hbm, ⟨2, _⟩ => ⟨S128x128, .f32⟩
  | .hbm, ⟨3, _⟩ => ⟨S128, .f32⟩
  | .hbm, ⟨4, _⟩ => ⟨S1024x128, .f32⟩
  | .hbm, ⟨5, _⟩ => ⟨S1x128, .f32⟩
  | .hbm, ⟨6, _⟩ => ⟨S1024x128, .f32⟩
  | .hbm, ⟨7, _⟩ => ⟨S4x256x128, .f32⟩
  | .local _ .vmem, ⟨0, _⟩ => ⟨S1024x128, .f32⟩
  | .local _ .vmem, ⟨1, _⟩ => ⟨S1024x1024, .i32⟩
  | .local _ .vmem, ⟨2, _⟩ => ⟨S128x128, .f32⟩
  | .local _ .vmem, ⟨3, _⟩ => ⟨S1x128, .f32⟩
  | .local _ .vmem, ⟨4, _⟩ => ⟨S1024x128, .f32⟩
  | _, _ => ⟨S4x256x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S1024x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

class Facts₀ : Prop where
  shapeCasts_S4x256x128_S1024x128 : S4x256x128.ShapeCasts S1024x128
  shapeCasts_S128_S1x128 : S128.ShapeCasts S1x128
  inb_S1024x1024_S1024x1024_0_0 : ∀ a, (![0, 0] : Fin 2 → Nat) a + S1024x1024.size a ≤ S1024x1024.size a
  h_S1024x1024 : 0 < S1024x1024.numel
  natLt_1_32 : 1 < 32
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S128x128_S128x128_0_0 : ∀ a, (![0, 0] : Fin 2 → Nat) a + S128x128.size a ≤ S128x128.size a
  h_S128x128 : 0 < S128x128.numel
  broadcasts_S1024x1_S1024x128 : S1024x1.Broadcasts S1024x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1024x128 : S1x128.Broadcasts S1024x128
  shapeCasts_S1024x128_S4x256x128 : S1024x128.ShapeCasts S4x256x128
  dot_S1024x128_S128x128_S1024x128_1_0_0_1_n_n_wf : DotDims.WF S1024x128 S128x128 S1024x128 [1] [0] [0] [1] [] []
  dot_S1024x1024_S1024x1_S1024x1_0_0_1_1_n_n_wf : DotDims.WF S1024x1024 S1024x1 S1024x1 [0] [0] [1] [1] [] []
  dot_S1024x1024_S1024x128_S1024x128_0_0_1_1_n_n_wf : DotDims.WF S1024x1024 S1024x128 S1024x128 [0] [0] [1] [1] [] []
  hstage0_0 : ∀ j, (stage0_0 j).IsWhole
  hstage0_1 : ∀ j, (stage0_1 j).IsWhole
  hstage0_2 : ∀ j, (stage0_2 j).IsWhole
  hstage0_3 : ∀ j, (stage0_3 j).IsWhole
  hstage0_4 : ∀ j, (stage0_4 j).IsWhole

variable [Facts₀]

def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf
def dot_S1024x1024_S1024x1_S1024x1_0_0_1_1_n_n : DotDims S1024x1024 S1024x1 S1024x1 where
  lhsContracting := [0]
  rhsContracting := [0]
  lhsNonContracting := [1]
  rhsNonContracting := [1]
  lhsBatch := []
  rhsBatch := []
  wf := dot_S1024x1024_S1024x1_S1024x1_0_0_1_1_n_n_wf
def dot_S1024x1024_S1024x128_S1024x128_0_0_1_1_n_n : DotDims S1024x1024 S1024x128 S1024x128 where
  lhsContracting := [0]
  rhsContracting := [0]
  lhsNonContracting := [1]
  rhsNonContracting := [1]
  lhsBatch := []
  rhsBatch := []
  wf := dot_S1024x1024_S1024x128_S1024x128_0_0_1_1_n_n_wf

abbrev win0_0 : Pipeline.Window sig grid0 :=
  Pipeline.Window.whole (Memref.whole main_v0) false false (stage0_0 0) (sem0_0 0) (Memref.isWhole_whole _) (hstage0_0 0)

abbrev win0_1 : Pipeline.Window sig grid0 :=
  Pipeline.Window.whole (Memref.whole main_arg1) false false (stage0_1 0) (sem0_1 0) (Memref.isWhole_whole _) (hstage0_1 0)

abbrev win0_2 : Pipeline.Window sig grid0 :=
  Pipeline.Window.whole (Memref.whole main_arg2) false false (stage0_2 0) (sem0_2 0) (Memref.isWhole_whole _) (hstage0_2 0)

abbrev win0_3 : Pipeline.Window sig grid0 :=
  Pipeline.Window.whole (Memref.whole main_v1) false false (stage0_3 0) (sem0_3 0) (Memref.isWhole_whole _) (hstage0_3 0)

abbrev win0_4 : Pipeline.Window sig grid0 :=
  Pipeline.Window.whole (Memref.whole main_v2) true false (stage0_4 0) (sem0_4 0) (Memref.isWhole_whole _) (hstage0_4 0)

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x256x128 : Shape := ⟨3, ![4, 256, 128]⟩
abbrev S1024x1024 : Shape := ⟨2, ![1024, 1024]⟩
abbrev S128x128 : Shape := ⟨2, ![128, 128]⟩
abbrev S128 : Shape := ⟨1, ![128]⟩
abbrev S1024x128 : Shape := ⟨2, ![1024, 128]⟩
abbrev S1024 : Shape := ⟨1, ![1024]⟩
abbrev S1048576 : Shape := ⟨1, ![1048576]⟩
abbrev S1x1024 : Shape := ⟨2, ![1, 1024]⟩
abbrev S_ : Shape := ⟨0, ![]⟩
abbrev S1049600 : Shape := ⟨1, ![1049600]⟩
abbrev S1049600x1 : Shape := ⟨2, ![1049600, 1]⟩
abbrev S1049600x128 : Shape := ⟨2, ![1049600, 128]⟩
abbrev S1x128 : Shape := ⟨2, ![1, 128]⟩

abbrev nBuf : Space → Nat
  | .hbm => 99
  | .vmem => 0
  | .smem => 0
  | _ => 0

abbrev bufTy : (tb : Table) → Fin (tcTables nBuf tb) → BufTy
  | .hbm, ⟨0, _⟩ => ⟨S4x256x128, .f32⟩
  | .hbm, ⟨1, _⟩ => ⟨S1024x1024, .i32⟩
  | .hbm, ⟨2, _⟩ => ⟨S128x128, .f32⟩
  | .hbm, ⟨3, _⟩ => ⟨S128, .f32⟩
  | .hbm, ⟨4, _⟩ => ⟨S1024x128, .f32⟩
  | .hbm, ⟨5, _⟩ => ⟨S1024, .i32⟩
  | .hbm, ⟨6, _⟩ => ⟨S1024x1024, .i32⟩
  | .hbm, ⟨7, _⟩ => ⟨S1048576, .i32⟩
  | .hbm, ⟨8, _⟩ => ⟨S1x1024, .i32⟩
  | .hbm, ⟨9, _⟩ => ⟨S1024x1024, .i32⟩
  | .hbm, ⟨10, _⟩ => ⟨S1048576, .i32⟩
  | .hbm, ⟨11, _⟩ => ⟨S1048576, .i32⟩
  | .hbm, ⟨12, _⟩ => ⟨S_, .i32⟩
  | .hbm, ⟨13, _⟩ => ⟨S1048576, .i32⟩
  | .hbm, ⟨14, _⟩ => ⟨S1048576, .i1⟩
  | .hbm, ⟨15, _⟩ => ⟨S1048576, .f32⟩
  | .hbm, ⟨16, _⟩ => ⟨S1049600, .i32⟩
  | .hbm, ⟨17, _⟩ => ⟨S1049600, .i32⟩
  | .hbm, ⟨18, _⟩ => ⟨S_, .f32⟩
  | .hbm, ⟨19, _⟩ => ⟨S1024, .f32⟩
  | .hbm, ⟨20, _⟩ => ⟨S1049600, .f32⟩
  | .hbm, ⟨21, _⟩ => ⟨S1024x128, .f32⟩
  | .hbm, ⟨22, _⟩ => ⟨S_, .f32⟩
  | .hbm, ⟨23, _⟩ => ⟨S1024, .f32⟩
  | .hbm, ⟨24, _⟩ => ⟨S_, .i32⟩
  | .hbm, ⟨25, _⟩ => ⟨S1049600, .i32⟩
  | .hbm, ⟨26, _⟩ => ⟨S1049600, .i1⟩
  | .hbm, ⟨27, _⟩ => ⟨S_, .i32⟩
  | .hbm, ⟨28, _⟩ => ⟨S1049600, .i32⟩
  | .hbm, ⟨29, _⟩ => ⟨S1049600, .i32⟩
  | .hbm, ⟨30, _⟩ => ⟨S1049600, .i32⟩
  | .hbm, ⟨31, _⟩ => ⟨S1049600x1, .i32⟩
  | .hbm, ⟨32, _⟩ => ⟨S1024, .f32⟩
  | .hbm, ⟨33, _⟩ => ⟨S_, .f32⟩
  | .hbm, ⟨34, _⟩ => ⟨S1024, .f32⟩
  | .hbm, ⟨35, _⟩ => ⟨S1024, .i1⟩
  | .hbm, ⟨36, _⟩ => ⟨S1024, .f32⟩
  | .hbm, ⟨37, _⟩ => ⟨S_, .f32⟩
  | .hbm, ⟨38, _⟩ => ⟨S1024, .f32⟩
  | .hbm, ⟨39, _⟩ => ⟨S1024, .f32⟩
  | .hbm, ⟨40, _⟩ => ⟨S_, .f32⟩
  | .hbm, ⟨41, _⟩ => ⟨S_, .f32⟩
  | .hbm, ⟨42, _⟩ => ⟨S1024, .f32⟩
  | .hbm, ⟨43, _⟩ => ⟨S1024, .f32⟩
  | .hbm, ⟨44, _⟩ => ⟨S_, .i32⟩
  | .hbm, ⟨45, _⟩ => ⟨S1049600, .i32⟩
  | .hbm, ⟨46, _⟩ => ⟨S1049600, .i1⟩
  | .hbm, ⟨47, _⟩ => ⟨S_, .i32⟩
  | .hbm, ⟨48, _⟩ => ⟨S1049600, .i32⟩
  | .hbm, ⟨49, _⟩ => ⟨S1049600, .i32⟩
  | .hbm, ⟨50, _⟩ => ⟨S1049600, .i32⟩
  | .hbm, ⟨51, _⟩ => ⟨S1049600x1, .i32⟩
  | .hbm, ⟨52, _⟩ => ⟨S1049600, .f32⟩
  | .hbm, ⟨53, _⟩ => ⟨S_, .i32⟩
  | .hbm, ⟨54, _⟩ => ⟨S1049600, .i32⟩
  | .hbm, ⟨55, _⟩ => ⟨S1049600, .i1⟩
  | .hbm, ⟨56, _⟩ => ⟨S_, .i32⟩
  | .hbm, ⟨57, _⟩ => ⟨S1049600, .i32⟩
  | .hbm, ⟨58, _⟩ => ⟨S1049600, .i32⟩
  | .hbm, ⟨59, _⟩ => ⟨S1049600, .i32⟩
  | .hbm, ⟨60, _⟩ => ⟨S1049600x1, .i32⟩
  | .hbm, ⟨61, _⟩ => ⟨S1049600, .f32⟩
  | .hbm, ⟨62, _⟩ => ⟨S1049600, .f32⟩
  | .hbm, ⟨63, _⟩ => ⟨S1049600, .f32⟩
  | .hbm, ⟨64, _⟩ => ⟨S_, .f32⟩
  | .hbm, ⟨65, _⟩ => ⟨S1024x128, .f32⟩
  | .hbm, ⟨66, _⟩ => ⟨S1049600x1, .f32⟩
  | .hbm, ⟨67, _⟩ => ⟨S_, .i32⟩
  | .hbm, ⟨68, _⟩ => ⟨S1049600, .i32⟩
  | .hbm, ⟨69, _⟩ => ⟨S1049600, .i1⟩
  | .hbm, ⟨70, _⟩ => ⟨S_, .i32⟩
  | .hbm, ⟨71, _⟩ => ⟨S1049600, .i32⟩
  | .hbm, ⟨72, _⟩ => ⟨S1049600, .i32⟩
  | .hbm, ⟨73, _⟩ => ⟨S1049600, .i32⟩
  | .hbm, ⟨74, _⟩ => ⟨S1049600x1, .i32⟩
  | .hbm, ⟨75, _⟩ => ⟨S1049600x128, .f32⟩
  | .hbm, ⟨76, _⟩ => ⟨S1049600x128, .f32⟩
  | .hbm, ⟨77, _⟩ => ⟨S1049600x128, .f32⟩
  | .hbm, ⟨78, _⟩ => ⟨S_, .i32⟩
  | .hbm, ⟨79, _⟩ => ⟨S1049600, .i32⟩
  | .hbm, ⟨80, _⟩ => ⟨S1049600, .i1⟩
  | .hbm, ⟨81, _⟩ => ⟨S_, .i32⟩
  | .hbm, ⟨82, _⟩ => ⟨S1049600, .i32⟩
  | .hbm, ⟨83, _⟩ => ⟨S1049600, .i32⟩
  | .hbm, ⟨84, _⟩ => ⟨S1049600, .i32⟩
  | .hbm, ⟨85, _⟩ => ⟨S1049600x1, .i32⟩
  | .hbm, ⟨86, _⟩ => ⟨S1024x128, .f32⟩
  | .hbm, ⟨87, _⟩ => ⟨S1x128, .f32⟩
  | .hbm, ⟨88, _⟩ => ⟨S1024x128, .f32⟩
  | .hbm, ⟨89, _⟩ => ⟨S1024x128, .f32⟩
  | .hbm, ⟨90, _⟩ => ⟨S4x256x128, .f32⟩
  | .hbm, ⟨91, _⟩ => ⟨S_, .f32⟩
  | .hbm, ⟨92, _⟩ => ⟨S_, .f32⟩
  | .hbm, ⟨93, _⟩ => ⟨S4x256x128, .f32⟩
  | .hbm, ⟨94, _⟩ => ⟨S4x256x128, .i1⟩
  | .hbm, ⟨95, _⟩ => ⟨S_, .f32⟩
  | .hbm, ⟨96, _⟩ => ⟨S4x256x128, .f32⟩
  | .hbm, ⟨97, _⟩ => ⟨S4x256x128, .f32⟩
  | .hbm, ⟨98, _⟩ => ⟨S4x256x128, .f32⟩
  | _, _ => ⟨S4x256x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_0 : Ref sig .tc := ⟨.hbm, 22, rfl⟩
abbrev main_v16 : Ref sig .tc := ⟨.hbm, 23, rfl⟩
abbrev main_c_1 : Ref sig .tc := ⟨.hbm, 24, rfl⟩
abbrev main_v17 : Ref sig .tc := ⟨.hbm, 25, rfl⟩
abbrev main_v18 : Ref sig .tc := ⟨.hbm, 26, rfl⟩
abbrev main_c_2 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_call0_v0 : Ref sig .tc := ⟨.hbm, 41, rfl⟩
abbrev main_call0_v1 : Ref sig .tc := ⟨.hbm, 42, rfl⟩
abbrev main_v29 : Ref sig .tc := ⟨.hbm, 43, rfl⟩
abbrev main_c_6 : Ref sig .tc := ⟨.hbm, 44, rfl⟩
abbrev main_v30 : Ref sig .tc := ⟨.hbm, 45, rfl⟩
abbrev main_v31 : Ref sig .tc := ⟨.hbm, 46, rfl⟩
abbrev main_c_7 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_c_8 : Ref sig .tc := ⟨.hbm, 53, rfl⟩
abbrev main_v37 : Ref sig .tc := ⟨.hbm, 54, rfl⟩
abbrev main_v38 : Ref sig .tc := ⟨.hbm, 55, rfl⟩
abbrev main_c_9 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_10 : Ref sig .tc := ⟨.hbm, 64, rfl⟩
abbrev main_v46 : Ref sig .tc := ⟨.hbm, 65, rfl⟩
abbrev main_v47 : Ref sig .tc := ⟨.hbm, 66, rfl⟩
abbrev main_c_11 : Ref sig .tc := ⟨.hbm, 67, rfl⟩
abbrev main_v48 : Ref sig .tc := ⟨.hbm, 68, rfl⟩
abbrev main_v49 : Ref sig .tc := ⟨.hbm, 69, rfl⟩
abbrev main_c_12 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_c_13 : Ref sig .tc := ⟨.hbm, 78, rfl⟩
abbrev main_v57 : Ref sig .tc := ⟨.hbm, 79, rfl⟩
abbrev main_v58 : Ref sig .tc := ⟨.hbm, 80, rfl⟩
abbrev main_c_14 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_cst_15 : Ref sig .tc := ⟨.hbm, 91, rfl⟩
abbrev main_call1_cst : Ref sig .tc := ⟨.hbm, 92, rfl⟩
abbrev main_call1_v0 : Ref sig .tc := ⟨.hbm, 93, rfl⟩
abbrev main_call1_v1 : Ref sig .tc := ⟨.hbm, 94, rfl⟩
abbrev main_call1_v2 : Ref sig .tc := ⟨.hbm, 95, rfl⟩
abbrev main_call1_v3 : Ref sig .tc := ⟨.hbm, 96, rfl⟩
abbrev main_call1_v4 : Ref sig .tc := ⟨.hbm, 97, rfl⟩
abbrev main_v68 : Ref sig .tc := ⟨.hbm, 98, rfl⟩

abbrev nD : Nat := 1
abbrev τ : Topo := Topo.v7x

variable {F : FTy → Type} [FloatOps F]

class Facts₀ : Prop where
  shapeCasts_S4x256x128_S1024x128 : S4x256x128.ShapeCasts S1024x128
  bcast_S1024_S1024x1024_0 : S1024.BroadcastsInDim S1024x1024 (![0] : Fin 1 → Fin S1024x1024.rank)
  shapeCasts_S1024x1024_S1048576 : S1024x1024.ShapeCasts S1048576
  shapeCasts_S1024_S1x1024 : S1024.ShapeCasts S1x1024
  bcast_S1x1024_S1024x1024_0_1 : S1x1024.BroadcastsInDim S1024x1024 (![0, 1] : Fin 2 → Fin S1024x1024.rank)
  bcast_S_S1048576 : S_.BroadcastsInDim S1048576 (![] : Fin 0 → Fin S1048576.rank)
  concatenates_S1048576_S1024_S1049600_d0 : Shape.Concatenates [S1048576, S1024] S1049600 0
  bcast_S_S1024 : S_.BroadcastsInDim S1024 (![] : Fin 0 → Fin S1024.rank)
  bcast_S_S1049600 : S_.BroadcastsInDim S1049600 (![] : Fin 0 → Fin S1049600.rank)
  bcast_S1049600_S1049600x1_0 : S1049600.BroadcastsInDim S1049600x1 (![0] : Fin 1 → Fin S1049600x1.rank)
  bcast_S_S1024x128 : S_.BroadcastsInDim S1024x128 (![] : Fin 0 → Fin S1024x128.rank)
  bcast_S1049600x1_S1049600x128_0_1 : S1049600x1.BroadcastsInDim S1049600x128 (![0, 1] : Fin 2 → Fin S1049600x128.rank)
  bcast_S128_S1x128_1 : S128.BroadcastsInDim S1x128 (![1] : Fin 1 → Fin S1x128.rank)
  bcast_S1x128_S1024x128_0_1 : S1x128.BroadcastsInDim S1024x128 (![0, 1] : Fin 2 → Fin S1024x128.rank)
  shapeCasts_S1024x128_S4x256x128 : S1024x128.ShapeCasts S4x256x128
  bcast_S_S4x256x128 : S_.BroadcastsInDim S4x256x128 (![] : Fin 0 → Fin S4x256x128.rank)
  dot_S1024x128_S128x128_S1024x128_1_0_0_1_n_n_wf : DotDims.WF S1024x128 S128x128 S1024x128 [1] [0] [0] [1] [] []
  scatter_S1024_S1049600x1_S1049600_n_0_0_1_wf : ScatterDims.WF S1024 S1049600x1 S1049600 [] [0] [0] 1
  gather_S1024_S1049600x1_S1049600_n_0_n_n_0_1_1_wf : GatherDims.WF S1024 S1049600x1 S1049600 [] [0] [] [0] [] 1 ![1]
  gather_S1024x128_S1049600x1_S1049600x128_1_0_n_n_0_1_1128_wf : GatherDims.WF S1024x128 S1049600x1 S1049600x128 [1] [0] [] [0] [] 1 ![1, 128]
  scatter_S1024x128_S1049600x1_S1049600x128_1_0_0_1_wf : ScatterDims.WF S1024x128 S1049600x1 S1049600x128 [1] [0] [0] 1

variable [Facts₀]

def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf
def scatter_S1024_S1049600x1_S1049600_n_0_0_1 : ScatterDims S1024 S1049600x1 S1049600 where
  updateWindowDims := []
  insertedWindowDims := [0]
  scatterDimsToOperandDims := [0]
  indexVectorDim := 1
  wf := scatter_S1024_S1049600x1_S1049600_n_0_0_1_wf
def gather_S1024_S1049600x1_S1049600_n_0_n_n_0_1_1 : GatherDims S1024 S1049600x1 S1049600 where
  offsetDims := []
  collapsedSliceDims := [0]
  operandBatchingDims := []
  startIndicesBatchingDims := []
  startIndexMap := [0]
  indexVectorDim := 1
  sliceSizes := ![1]
  wf := gather_S1024_S1049600x1_S1049600_n_0_n_n_0_1_1_wf
def gather_S1024x128_S1049600x1_S1049600x128_1_0_n_n_0_1_1128 : GatherDims S1024x128 S1049600x1 S1049600x128 where
  offsetDims := [1]
  collapsedSliceDims := [0]
  operandBatchingDims := []
  startIndicesBatchingDims := []
  startIndexMap := [0]
  indexVectorDim := 1
  sliceSizes := ![1, 128]
  wf := gather_S1024x128_S1049600x1_S1049600x128_1_0_n_n_0_1_1128_wf
def scatter_S1024x128_S1049600x1_S1049600x128_1_0_0_1 : ScatterDims S1024x128 S1049600x1 S1049600x128 where
  updateWindowDims := [1]
  insertedWindowDims := [0]
  scatterDimsToOperandDims := [0]
  indexVectorDim := 1
  wf := scatter_S1024x128_S1049600x1_S1049600x128_1_0_0_1_wf

class Facts : Prop extends Facts₀ where

variable [Facts]
-- ==== Proof.KernelValue.lean ====
/-
  The value of the idealized kernel program, read off its frame run.

  The program reshapes two of its arguments, launches one region with no grid, and reshapes the region's output.
  With no grid there is one point and every window's block is its whole array: the body loads the four operand arrays
  whole, stores one value `k0_pay1` of them over the whole output array, and the one write-back copies all of it.
  So the output array ends at `k0_pay1` of the operand arrays, and the result buffer at its reshape.
-/
import proofs.«175754_g9603546874456_fold_wed_m_582_2_alg».proof.Proof.Gen.KernelIdeal.Frame
import Idealize.ShloMosaic.Lib.Pipeline.Value
import Idealize.ShloMosaic.Lib.StableHlo.Run

set_option maxRecDepth 16384

noncomputable section

namespace Cert.KernelIdeal.KernelValue

open Cert.KernelIdeal Cert.KernelIdeal.Gen
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## The body's one store -/

/-- The zero offsets of the body's rectangles. -/
theorem hz : (![0, 0] : Fin 2 → Nat) = fun _ => 0 := funext fun a => by fin_cases a <;> rfl

/-- The body loads each of its four inputs whole and stores once, over the whole output: the output buffer ends
    at the stored value computed from the inputs' contents. -/
theorem out_eq (x0 : Vec F S1024x128 .f32) (x1 : Vec F S1024x1024 .i32) (x2 : Vec F S128x128 .f32) (x3 : Vec F S1x128 .f32) :
    out0_4 x0 x1 x2 x3 = k0_pay1 x1 x0 x2 x3 := by
  unfold out0_4
  rw [View.canon_unit_zero hz]
  simp only [View.ld_unit_zero (S := S1024x1024) hz, View.ld_unit_zero (S := S1024x128) hz,
    View.ld_unit_zero (S := S128x128) hz, View.ld_unit_zero (S := S1x128) hz]

/-! ## A block is the whole array

There is one grid point and every window's block index is 0 on every axis, so each block sits at offset 0 and has
the array's own extents: reading an array through its block gives the array. -/

theorem blk_read_0 (t : Fin cfg0.N) (X : main_v0.ty.Contents (Elt F)) : ((cfg0.win 0).blk t).view.read (Elt F) X = X := by
  have hz' : (fun a => win0_0.index t a * main_v0.ty.shape.size a) = fun _ => 0 := funext fun a => Nat.zero_mul _
  exact Memref.read_access_unit_zero (Elt F) main_v0 hz' (fun a => by rw [congrFun hz' a]; simp) X

theorem blk_read_1 (t : Fin cfg0.N) (X : main_arg1.ty.Contents (Elt F)) : ((cfg0.win 1).blk t).view.read (Elt F) X = X := by
  have hz' : (fun a => win0_1.index t a * main_arg1.ty.shape.size a) = fun _ => 0 := funext fun a => Nat.zero_mul _
  exact Memref.read_access_unit_zero (Elt F) main_arg1 hz' (fun a => by rw [congrFun hz' a]; simp) X

theorem blk_read_2 (t : Fin cfg0.N) (X : main_arg2.ty.Contents (Elt F)) : ((cfg0.win 2).blk t).view.read (Elt F) X = X := by
  have hz' : (fun a => win0_2.index t a * main_arg2.ty.shape.size a) = fun _ => 0 := funext fun a => Nat.zero_mul _
  exact Memref.read_access_unit_zero (Elt F) main_arg2 hz' (fun a => by rw [congrFun hz' a]; simp) X

theorem blk_read_3 (t : Fin cfg0.N) (X : main_v1.ty.Contents (Elt F)) : ((cfg0.win 3).blk t).view.read (Elt F) X = X := by
  have hz' : (fun a => win0_3.index t a * main_v1.ty.shape.size a) = fun _ => 0 := funext fun a => Nat.zero_mul _
  exact Memref.read_access_unit_zero (Elt F) main_v1 hz' (fun a => by rw [congrFun hz' a]; simp) X

theorem blk_read_4 (t : Fin cfg0.N) (X : main_v2.ty.Contents (Elt F)) : ((cfg0.win 4).blk t).view.read (Elt F) X = X := by
  have hz' : (fun a => win0_4.index t a * main_v2.ty.shape.size a) = fun _ => 0 := funext fun a => Nat.zero_mul _
  exact Memref.read_access_unit_zero (Elt F) main_v2 hz' (fun a => by rw [congrFun hz' a]; simp) X

/-- Each input window's block at the one point is its array as the region finds it. -/
theorem iblk_0 (c : Dev nD) (t : Fin cfg0.N) : iblk m c 0 t = V m c main_v0 := by
  unfold iblk; exact blk_read_0 t _
theorem iblk_1 (c : Dev nD) (t : Fin cfg0.N) : iblk m c 1 t = V m c main_arg1 := by
  unfold iblk; exact blk_read_1 t _
theorem iblk_2 (c : Dev nD) (t : Fin cfg0.N) : iblk m c 2 t = V m c main_arg2 := by
  unfold iblk; exact blk_read_2 t _
theorem iblk_3 (c : Dev nD) (t : Fin cfg0.N) : iblk m c 3 t = V m c main_v1 := by
  unfold iblk; exact blk_read_3 t _

/-! ## The arrays the region finds

Two of the region's operands are reshapes of arguments, made before the region; the other two are arguments. -/

theorem V_main_v0 (c : Dev nD) :
    V m c main_v0 = shapeCast S1024x128 (m ((c : Thread nD τ).loc main_arg0)) shapeCasts_S4x256x128_S1024x128 := by
  show StableHlo.after hostOps0 (fun b => m (c, b)) (Proc.devRef .tc main_v0) = _
  after_results
  rfl

theorem V_main_v1 (c : Dev nD) :
    V m c main_v1 = shapeCast S1x128 (m ((c : Thread nD τ).loc main_arg3)) shapeCasts_S128_S1x128 := by
  show StableHlo.after hostOps0 (fun b => m (c, b)) (Proc.devRef .tc main_v1) = _
  after_results
  rfl

/-! ## The output array after the region -/

/-- What the region leaves in its output array: the body's stored value of the four arrays the region finds. -/
abbrev G (c : Dev nD) : Vec F S1024x128 .f32 :=
  k0_pay1 (V m c main_arg1) (V m c main_v0) (V m c main_arg2) (V m c main_v1)

/-- The one point writes back the whole of that value. -/
theorem flushed_eq (c : Dev nD) (t : Fin cfg0.N) :
    (dats m 0 c).flushed 4 t = ((cfg0.win 4).blk t).view.read (Elt F) (G m c) := by
  rw [blk_read_4]
  show (cfg0.win 4).cut (grid0.coords t) ((dats m 0 c).after 4 t) = _
  rw [after0_4, out_eq, iblk_0, iblk_1, iblk_2, iblk_3]
  rfl

/-- Every index of the output array lies in the one point's block. -/
theorem cover (c : Dev nD) (i : ((cfg0.win 4).arr.view.loc (c.tc : Thread nD τ)).2.ty.Idx) :
    ∃ t : Fin cfg0.N, (cfg0.win 4).flush t = true ∧ i ∈ ((cfg0.win 4).blk t).view.set := by
  refine ⟨t0_0, flush0_4 t0_0, ?_⟩
  show i ∈ ((View.whole main_v2).slice (win0_4.rect t0_0)).set
  rw [View.set_slice_whole]
  have hz' : (fun a => win0_4.index t0_0 a * main_v2.ty.shape.size a) = fun _ => 0 := funext fun a => Nat.zero_mul _
  exact View.mem_set_unit_zero hz' (fun a => by rw [congrFun hz' a]; simp) i

/-- The output array after the run. -/
theorem final4 (c : Dev nD) : (dats m 0 c).arrAt 4 cfg0.N
    = k0_pay1 (m ((c : Thread nD τ).loc main_arg1))
        (shapeCast S1024x128 (m ((c : Thread nD τ).loc main_arg0)) shapeCasts_S4x256x128_S1024x128)
        (m ((c : Thread nD τ).loc main_arg2))
        (shapeCast S1x128 (m ((c : Thread nD τ).loc main_arg3)) shapeCasts_S128_S1x128) := by
  rw [(dats m 0 c).arrAt_eq_of_cover 4 (G m c) (fun t _ => flushed_eq m c t) (cover c)]
  show k0_pay1 (V m c main_arg1) (V m c main_v0) (V m c main_arg2) (V m c main_v1) = _
  rw [V_main_arg1, V_main_v0, V_main_arg2, V_main_v1]

/-! ## The reshape after the region -/

/-- The result buffer after the last host operation: the output array, reshaped. -/
theorem tail_eq (c : Dev nD) : Pipeline.afterTail₀ cfgs (dats m) 0 (V0 m) [hostOps1] c main_v3
    = shapeCast S4x256x128 ((dats m 0 c).arrAt 4 cfg0.N) shapeCasts_S1024x128_S4x256x128 := by
  unfold Pipeline.afterTail₀
  show StableHlo.after hostOps1 _ (Proc.devRef .tc main_v3) = _
  after_results
  rw [Pipeline.withArrays_arr spec0 launch0.win.arr_inj c _ _ 4]
  rfl

/-! ## The run, read -/

/-- Every weakly fair execution terminates with the result buffer at the reshaped stored value of the arguments
    (two of them reshaped on the way in), and the four arguments unchanged. -/
theorem run : θ_run defs (onTc (τ := τ) (main (F := F))) ⟨m, fun _ => 0, ρ⟩ fun r => ∀ c : Dev nD,
      r.2.mem ((c.tc : Thread nD τ).loc main_v3)
        = shapeCast S4x256x128
            (k0_pay1 (F := F) (m ((c.tc : Thread nD τ).loc main_arg1))
              (shapeCast S1024x128 (m ((c.tc : Thread nD τ).loc main_arg0)) shapeCasts_S4x256x128_S1024x128)
              (m ((c.tc : Thread nD τ).loc main_arg2))
              (shapeCast S1x128 (m ((c.tc : Thread nD τ).loc main_arg3)) shapeCasts_S128_S1x128))
            shapeCasts_S1024x128_S4x256x128
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v3 (Pipeline.mem_restRefs_of main_v3 (by decide) (by decide))).trans
        ((tail_eq m c).trans (congrArg (fun X => shapeCast S4x256x128 X shapeCasts_S1024x128_S4x256x128) (final4 m c))),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c)⟩)
    (run_main m ρ)

end Cert.KernelIdeal.KernelValue

end
-- ==== Proof.FiniteInputs.lean ====
/-
  Finiteness of the float arguments, read off the precondition.

  The precondition is the conjunction of three tests "every entry x of the array satisfies |x| < +∞", one per float
  argument, each conjunction over the array's entries taken by a reduction by `and` to a scalar. At the exact
  extended-real reading |x| = max x (-x) and +∞ is the top element, so |x| < +∞ rules out x = +∞ and x = -∞:
  every entry of the three arrays is a real number.
-/
import proofs.«175754_g9603546874456_fold_wed_m_582_2_alg».proof.Defs
import proofs.«175754_g9603546874456_fold_wed_m_582_2_alg».proof.Proof.Gen.Pre_finite_inputs
import proofs.«175754_g9603546874456_fold_wed_m_582_2_alg».proof.Proof.Gen.KernelIdeal
import Idealize.ShloMosaic.Lib.ReduceAll
import Idealize.ShloMosaic.Lib.ValueIdx
import Idealize.ShloMosaic.PureOps.Ideal

noncomputable section

namespace Cert.Proof.FiniteInputs

open Idealize.ShloMosaic Idealize.ShloMosaic.TcCoe Idealize.SL.Sem

/-- The scalar shape has exactly one index. -/
instance : Subsingleton Cert.Pre_finite_inputs.S_.Idx := ⟨fun a b => funext fun d => d.elim0⟩

/-- The word 0x7F800000 read as a binary32 pattern is +∞. -/
theorem inf_eq_top : Ideal.ofBits .f32 0x7F800000#32 = (⊤ : EReal) := by
  simp [Ideal.ofBits, Ideal.ieee]

/-- An extended real whose absolute value max x (-x) lies strictly below +∞ is a real number. -/
theorem real_of_abs_lt_top (x : EReal) (h : max x (-x) < (⊤ : EReal)) : ∃ r : ℝ, x = ((r : ℝ) : EReal) := by
  induction x using EReal.rec with
  | bot => simp at h
  | coe r => exact ⟨r, rfl⟩
  | top => simp at h

/-- One entry of the elementwise test |x| < +∞ being 1 says that entry of x is a real number. -/
theorem real_of_test {s : Shape} (x y : FVec Ideal s .f32) (hy : ∀ i, y i = Ideal.ofBits .f32 0x7F800000#32) (i : s.Idx)
    (h : cmpf .olt (Host.absf x) y i = 1#1) : ∃ r : ℝ, x i = ((r : ℝ) : EReal) := by
  have h' : Ideal.cmp .olt (max (x i) (-(x i))) (y i) = 1#1 := h
  rw [hy i, inf_eq_top] at h'
  unfold Ideal.cmp at h'
  refine real_of_abs_lt_top (x i) ?_
  by_contra hn
  simp [hn] at h'

/-- Under the precondition every entry of the three float argument arrays is a real number. -/
theorem real_of_pre (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ r : ℝ, m ((c.tc : Thread Cert.KernelIdeal.nD Cert.KernelIdeal.τ).loc Cert.KernelIdeal.main_arg0) i = ((r : ℝ) : EReal))
    ∧ (∀ i, ∃ r : ℝ, m ((c.tc : Thread Cert.KernelIdeal.nD Cert.KernelIdeal.τ).loc Cert.KernelIdeal.main_arg2) i = ((r : ℝ) : EReal))
    ∧ (∀ i, ∃ r : ℝ, m ((c.tc : Thread Cert.KernelIdeal.nD Cert.KernelIdeal.τ).loc Cert.KernelIdeal.main_arg3) i = ((r : ℝ) : EReal)) := by
  have e := congrFun (h c) ValueIdx.ix0
  dsimp only [Cert.Pre_finite_inputs.fn] at e
  unfold Idealize.ShloMosaic.andi at e
  obtain ⟨e01, e3⟩ := IntOp.andi_eq_one.1 e
  obtain ⟨e0, e2⟩ := IntOp.andi_eq_one.1 e01
  refine ⟨fun i => ?_, fun i => ?_, fun i => ?_⟩
  · exact real_of_test _ _ (fun _ => rfl) i (Host.reduce_andi_all _ _ _ _ _ e0 i)
  · exact real_of_test _ _ (fun _ => rfl) i (Host.reduce_andi_all _ _ _ _ _ e2 i)
  · exact real_of_test _ _ (fun _ => rfl) i (Host.reduce_andi_all _ _ _ _ _ e3 i)

end Cert.Proof.FiniteInputs

end
-- ==== Proof.RefTerm.lean ====
/-
  The reference program's result as ONE pure term of its four argument arrays, cut into the stages the
  mathematics reads: the graph has N = 1024 nodes and E = N² + N edges.  Edge e < N² runs from node e / N to
  node e % N and carries weight 1 when the adjacency entry (e / N, e % N) is nonzero, else 0; edge N² + i is the
  self-loop of node i, weight 1.  With h = x₂ @ W (x₂ the input's rows), deg j = Σ_{e : dst e = j} w e,
  dinv = 1 / sqrt deg where deg > 0 (else 0), the layer is
      out j = Σ_{e : dst e = j} (dinv (src e) · dinv (dst e) · w e) · h (src e)  +  b ,
  reshaped to [4, 256, 128] and passed through the leaky rectifier x ↦ (x ≥ 0 ? x : c · x).
-/
import proofs.«175754_g9603546874456_fold_wed_m_582_2_alg».proof.Proof.Gen.ReferenceIdeal

noncomputable section

namespace Cert.ReferenceIdeal.RefTerm

open Cert.ReferenceIdeal Cert.ReferenceIdeal.Gen Idealize.ShloMosaic Idealize.SL.Sem

variable {F : FTy → Type} [FloatOps F]

/-- The node numbers 0 … 1023 as 32-bit words. -/
def nodes : IVec S1024 32 := iotaInDim S1024 32 0

/-- Each edge's source word: the first 1024² edges repeat every node 1024 times in turn (edge e leaves node
    e / 1024), the last 1024 are the self-loops. -/
def srcW : IVec S1049600 32 :=
  concatenate S1049600 0
    [⟨S1048576, shapeCast S1048576 (broadcastInDim S1024x1024 ![0] bcast_S1024_S1024x1024_0 nodes)
        shapeCasts_S1024x1024_S1048576⟩, ⟨S1024, nodes⟩]
    concatenates_S1048576_S1024_S1049600_d0

/-- Each edge's destination word: the first 1024² edges tile the node list 1024 times (edge e enters node
    e % 1024), the last 1024 are the self-loops. -/
def dstW : IVec S1049600 32 :=
  concatenate S1049600 0
    [⟨S1048576, shapeCast S1048576
        (broadcastInDim S1024x1024 ![0, 1] bcast_S1x1024_S1024x1024_0_1 (shapeCast S1x1024 nodes shapeCasts_S1024_S1x1024))
        shapeCasts_S1024x1024_S1048576⟩, ⟨S1024, nodes⟩]
    concatenates_S1048576_S1024_S1049600_d0

/-- An index word list as the column of index vectors a gather or scatter reads: a negative word is first
    moved up by 1024. -/
def wrapCol (w : IVec S1049600 32) : IVec S1049600x1 32 :=
  broadcastInDim S1049600x1 ![0] bcast_S1049600_S1049600x1_0
    (select (cmpi .slt w (broadcastInDim S1049600 ![] bcast_S_S1049600 (constantI S_ 32 0#32)))
      (addi w (broadcastInDim S1049600 ![] bcast_S_S1049600 (constantI S_ 32 1024#32))) w)

/-- The edge weights: 1 where the flattened adjacency is nonzero, else 0; then 1 for every self-loop. -/
def edgeW (adj : IVec S1024x1024 32) : FVec F S1049600 .f32 :=
  concatenate S1049600 0
    [⟨S1048576, uitofp .f32 (cmpi .ne (shapeCast S1048576 adj shapeCasts_S1024x1024_S1048576)
        (broadcastInDim S1048576 ![] bcast_S_S1048576 (constantI S_ 32 0#32)))⟩,
     ⟨S1024, broadcastInDim S1024 ![] bcast_S_S1024 (constant S_ .f32 0x3F800000#32)⟩]
    concatenates_S1048576_S1024_S1049600_d0

/-- The transformed features h = x₂ @ W. -/
def hmat (x : FVec F S4x256x128 .f32) (W : FVec F S128x128 .f32) : FVec F S1024x128 .f32 :=
  Host.dotGeneral dot_S1024x128_S128x128_S1024x128_1_0_0_1_n_n none
    (shapeCast S1024x128 x shapeCasts_S4x256x128_S1024x128) W

/-- The weighted in-degree: the edge weights added up at their destinations, from zero. -/
def deg (adj : IVec S1024x1024 32) : FVec F S1024 .f32 :=
  Host.scatterAdd scatter_S1024_S1049600x1_S1049600_n_0_0_1
    (broadcastInDim S1024 ![] bcast_S_S1024 (constant S_ .f32 0x00000000#32)) (wrapCol dstW) (edgeW adj)

/-- 1 / sqrt deg where deg > 0, else 0. -/
def dinv (adj : IVec S1024x1024 32) : FVec F S1024 .f32 :=
  select (cmpf .ogt (deg (F := F) adj) (broadcastInDim S1024 ![] bcast_S_S1024 (constant S_ .f32 0x00000000#32)))
    (Host.divf (broadcastInDim S1024 ![] bcast_S_S1024 (constant S_ .f32 0x3F800000#32)) (Host.sqrt (deg (F := F) adj)))
    (broadcastInDim S1024 ![] bcast_S_S1024 (id (constant S_ .f32 0x00000000#32)))

/-- Each edge's normalised weight dinv (src) · dinv (dst) · w. -/
def norm (adj : IVec S1024x1024 32) : FVec F S1049600 .f32 :=
  mulf (mulf (Host.gather gather_S1024_S1049600x1_S1049600_n_0_n_n_0_1_1 (dinv (F := F) adj) (wrapCol srcW))
             (Host.gather gather_S1024_S1049600x1_S1049600_n_0_n_n_0_1_1 (dinv (F := F) adj) (wrapCol dstW)))
       (edgeW adj)

/-- Each edge's message: its normalised weight times its source's feature row. -/
def msgs (x : FVec F S4x256x128 .f32) (adj : IVec S1024x1024 32) (W : FVec F S128x128 .f32) : FVec F S1049600x128 .f32 :=
  mulf (broadcastInDim S1049600x128 ![0, 1] bcast_S1049600x1_S1049600x128_0_1
          (broadcastInDim S1049600x1 ![0] bcast_S1049600_S1049600x1_0 (norm (F := F) adj)))
       (Host.gather gather_S1024x128_S1049600x1_S1049600x128_1_0_n_n_0_1_1128 (hmat x W) (wrapCol srcW))

/-- The messages added up at their destinations, from zero. -/
def agg (x : FVec F S4x256x128 .f32) (adj : IVec S1024x1024 32) (W : FVec F S128x128 .f32) : FVec F S1024x128 .f32 :=
  Host.scatterAdd scatter_S1024x128_S1049600x1_S1049600x128_1_0_0_1
    (broadcastInDim S1024x128 ![] bcast_S_S1024x128 (constant S_ .f32 0x00000000#32)) (wrapCol dstW) (msgs x adj W)

/-- The layer before its activation, as the [1024, 128] array: the aggregate plus the bias on every row. -/
def lin (x : FVec F S4x256x128 .f32) (adj : IVec S1024x1024 32) (W : FVec F S128x128 .f32) (b : FVec F S128 .f32) :
    FVec F S1024x128 .f32 :=
  addf (agg x adj W)
    (broadcastInDim S1024x128 ![0, 1] bcast_S1x128_S1024x128_0_1 (broadcastInDim S1x128 ![1] bcast_S128_S1x128_1 b))

/-- The leaky rectifier on the [4, 256, 128] array: x where x ≥ 0, else c · x, c the slope's word. -/
def leaky (y : FVec F S4x256x128 .f32) : FVec F S4x256x128 .f32 :=
  select (cmpf .oge y (broadcastInDim S4x256x128 ![] bcast_S_S4x256x128 (constant S_ .f32 0x00000000#32)))
    y (mulf (broadcastInDim S4x256x128 ![] bcast_S_S4x256x128 (id (constant S_ .f32 0x3C23D70A#32))) y)

/-- The reference's result. -/
def out (x : FVec F S4x256x128 .f32) (adj : IVec S1024x1024 32) (W : FVec F S128x128 .f32) (b : FVec F S128 .f32) :
    FVec F S4x256x128 .f32 :=
  leaky (shapeCast S4x256x128 (lin x adj W b) shapeCasts_S1024x128_S4x256x128)

end Cert.ReferenceIdeal.RefTerm

end
-- ==== Proof.RefRun.lean ====
/-
  The reference program's run. Its @main is a straight line of host operations with no kernel: 88 statements, two
  of them calls of functions whose bodies are themselves straight lines (a select against a constant, three
  operations; the leaky rectifier, six operations and an inner select), so 95 operations in all once each call is
  read as its body over the call's own buffers. From any memory with zero counters every weakly fair execution
  of it terminates; the result buffer then holds the staged term `RefTerm.out` of the four argument arrays'
  launch contents (the normalised graph-convolution layer followed by the leaky rectifier), and the four
  argument arrays hold what they held.
-/
import proofs.«175754_g9603546874456_fold_wed_m_582_2_alg».proof.Proof.Gen.ReferenceIdeal
import proofs.«175754_g9603546874456_fold_wed_m_582_2_alg».proof.Proof.RefTerm
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 95 operations in order, the two called functions' operations written where they are called, over
    each call's own buffers: the select-or-constant after the degree's inverse square root (three operations:
    the constant's conversion, its broadcast, the select, into the buffer of %29), and the leaky rectifier at
    the end (seven: the zero and its broadcast, the comparison, the slope's conversion and broadcast, the
    product, and the inner select into the buffer of %68). -/
abbrev ops : List (HloOp τ sig (Elt F)) :=
  [ StableHlo.reshape main_arg0 main_v0 rfl shapeCasts_S4x256x128_S1024x128,
    StableHlo.nullary main_v1 (iotaInDim S1024 32 0),
    StableHlo.unary main_v1 main_v2 (broadcastInDim S1024x1024 ![0] bcast_S1024_S1024x1024_0 : (⟨S1024, .i32⟩ : BufTy).Contents (Elt F) → (⟨S1024x1024, .i32⟩ : BufTy).Contents (Elt F)),
    StableHlo.reshape main_v2 main_v3 rfl shapeCasts_S1024x1024_S1048576,
    StableHlo.reshape main_v1 main_v4 rfl shapeCasts_S1024_S1x1024,
    StableHlo.unary main_v4 main_v5 (broadcastInDim S1024x1024 ![0, 1] bcast_S1x1024_S1024x1024_0_1 : (⟨S1x1024, .i32⟩ : BufTy).Contents (Elt F) → (⟨S1024x1024, .i32⟩ : BufTy).Contents (Elt F)),
    StableHlo.reshape main_v5 main_v6 rfl shapeCasts_S1024x1024_S1048576,
    StableHlo.reshape main_arg1 main_v7 rfl shapeCasts_S1024x1024_S1048576,
    StableHlo.nullary main_c (constantI S_ 32 0#32),
    StableHlo.unary main_c main_v8 (broadcastInDim S1048576 ![] bcast_S_S1048576 : (⟨S_, .i32⟩ : BufTy).Contents (Elt F) → (⟨S1048576, .i32⟩ : BufTy).Contents (Elt F)),
    StableHlo.binary main_v7 main_v8 main_v9 (cmpi .ne : (⟨S1048576, .i32⟩ : BufTy).Contents (Elt F) → (⟨S1048576, .i32⟩ : BufTy).Contents (Elt F) → (⟨S1048576, .i1⟩ : BufTy).Contents (Elt F)),
    StableHlo.unary main_v9 main_v10 (uitofp .f32 : (⟨S1048576, .i1⟩ : BufTy).Contents (Elt F) → (⟨S1048576, .f32⟩ : BufTy).Contents (Elt F)),
    StableHlo.binary main_v3 main_v1 main_v11 ((fun a b => concatenate S1049600 0 [⟨S1048576, a⟩, ⟨S1024, b⟩] concatenates_S1048576_S1024_S1049600_d0) : (⟨S1048576, .i32⟩ : BufTy).Contents (Elt F) → (⟨S1024, .i32⟩ : BufTy).Contents (Elt F) → (⟨S1049600, .i32⟩ : BufTy).Contents (Elt F)),
    StableHlo.binary main_v6 main_v1 main_v12 ((fun a b => concatenate S1049600 0 [⟨S1048576, a⟩, ⟨S1024, b⟩] concatenates_S1048576_S1024_S1049600_d0) : (⟨S1048576, .i32⟩ : BufTy).Contents (Elt F) → (⟨S1024, .i32⟩ : BufTy).Contents (Elt F) → (⟨S1049600, .i32⟩ : BufTy).Contents (Elt F)),
    StableHlo.nullary main_cst (constant S_ .f32 0x3F800000#32),
    StableHlo.unary main_cst main_v13 (broadcastInDim S1024 ![] bcast_S_S1024 : (⟨S_, .f32⟩ : BufTy).Contents (Elt F) → (⟨S1024, .f32⟩ : BufTy).Contents (Elt F)),
    StableHlo.binary main_v10 main_v13 main_v14 ((fun a b => concatenate S1049600 0 [⟨S1048576, a⟩, ⟨S1024, b⟩] concatenates_S1048576_S1024_S1049600_d0) : (⟨S1048576, .f32⟩ : BufTy).Contents (Elt F) → (⟨S1024, .f32⟩ : BufTy).Contents (Elt F) → (⟨S1049600, .f32⟩ : BufTy).Contents (Elt F)),
    StableHlo.binary main_v0 main_arg2 main_v15 ((fun l r => Host.dotGeneral dot_S1024x128_S128x128_S1024x128_1_0_0_1_n_n none l r) : (⟨S1024x128, .f32⟩ : BufTy).Contents (Elt F) → (⟨S128x128, .f32⟩ : BufTy).Contents (Elt F) → (⟨S1024x128, .f32⟩ : BufTy).Contents (Elt F)),
    StableHlo.nullary main_cst_0 (constant S_ .f32 0x00000000#32),
    StableHlo.unary main_cst_0 main_v16 (broadcastInDim S1024 ![] bcast_S_S1024 : (⟨S_, .f32⟩ : BufTy).Contents (Elt F) → (⟨S1024, .f32⟩ : BufTy).Contents (Elt F)),
    StableHlo.nullary main_c_1 (constantI S_ 32 0#32),
    StableHlo.unary main_c_1 main_v17 (broadcastInDim S1049600 ![] bcast_S_S1049600 : (⟨S_, .i32⟩ : BufTy).Contents (Elt F) → (⟨S1049600, .i32⟩ : BufTy).Contents (Elt F)),
    StableHlo.binary main_v12 main_v17 main_v18 (cmpi .slt : (⟨S1049600, .i32⟩ : BufTy).Contents (Elt F) → (⟨S1049600, .i32⟩ : BufTy).Contents (Elt F) → (⟨S1049600, .i1⟩ : BufTy).Contents (Elt F)),
    StableHlo.nullary main_c_2 (constantI S_ 32 1024#32),
    StableHlo.unary main_c_2 main_v19 (broadcastInDim S1049600 ![] bcast_S_S1049600 : (⟨S_, .i32⟩ : BufTy).Contents (Elt F) → (⟨S1049600, .i32⟩ : BufTy).Contents (Elt F)),
    StableHlo.binary main_v12 main_v19 main_v20 (addi : (⟨S1049600, .i32⟩ : BufTy).Contents (Elt F) → (⟨S1049600, .i32⟩ : BufTy).Contents (Elt F) → (⟨S1049600, .i32⟩ : BufTy).Contents (Elt F)),
    StableHlo.ternary main_v18 main_v20 main_v12 main_v21 (select : (⟨S1049600, .i1⟩ : BufTy).Contents (Elt F) → (⟨S1049600, .i32⟩ : BufTy).Contents (Elt F) → (⟨S1049600, .i32⟩ : BufTy).Contents (Elt F) → (⟨S1049600, .i32⟩ : BufTy).Contents (Elt F)),
    StableHlo.unary main_v21 main_v22 (broadcastInDim S1049600x1 ![0] bcast_S1049600_S1049600x1_0 : (⟨S1049600, .i32⟩ : BufTy).Contents (Elt F) → (⟨S1049600x1, .i32⟩ : BufTy).Contents (Elt F)),
    StableHlo.ternary main_v16 main_v22 main_v14 main_v23 ((fun x i u => Host.scatterAdd scatter_S1024_S1049600x1_S1049600_n_0_0_1 x i u) : (⟨S1024, .f32⟩ : BufTy).Contents (Elt F) → (⟨S1049600x1, .i32⟩ : BufTy).Contents (Elt F) → (⟨S1049600, .f32⟩ : BufTy).Contents (Elt F) → (⟨S1024, .f32⟩ : BufTy).Contents (Elt F)),
    StableHlo.nullary main_cst_3 (constant S_ .f32 0x00000000#32),
    StableHlo.unary main_cst_3 main_v24 (broadcastInDim S1024 ![] bcast_S_S1024 : (⟨S_, .f32⟩ : BufTy).Contents (Elt F) → (⟨S1024, .f32⟩ : BufTy).Contents (Elt F)),
    StableHlo.binary main_v23 main_v24 main_v25 (cmpf .ogt : (⟨S1024, .f32⟩ : BufTy).Contents (Elt F) → (⟨S1024, .f32⟩ : BufTy).Contents (Elt F) → (⟨S1024, .i1⟩ : BufTy).Contents (Elt F)),
    StableHlo.unary main_v23 main_v26 (Host.sqrt : (⟨S1024, .f32⟩ : BufTy).Contents (Elt F) → (⟨S1024, .f32⟩ : BufTy).Contents (Elt F)),
    StableHlo.nullary main_cst_4 (constant S_ .f32 0x3F800000#32),
    StableHlo.unary main_cst_4 main_v27 (broadcastInDim S1024 ![] bcast_S_S1024 : (⟨S_, .f32⟩ : BufTy).Contents (Elt F) → (⟨S1024, .f32⟩ : BufTy).Contents (Elt F)),
    StableHlo.binary main_v27 main_v26 main_v28 (Host.divf : (⟨S1024, .f32⟩ : BufTy).Contents (Elt F) → (⟨S1024, .f32⟩ : BufTy).Contents (Elt F) → (⟨S1024, .f32⟩ : BufTy).Contents (Elt F)),
    StableHlo.nullary main_cst_5 (constant S_ .f32 0x00000000#32),
    TRef.unary (.of main_cst_5 : TRef sig ⟨S_, .f32⟩) main_call0.v0 id,
    TRef.unary main_call0.v0 main_call0.v1 (broadcastInDim S1024 ![] bcast_S_S1024),
    TRef.ternary (.of main_v25 : TRef sig ⟨S1024, .i1⟩) (.of main_v28 : TRef sig ⟨S1024, .f32⟩) main_call0.v1 main_call0.v2 select,
    StableHlo.nullary main_c_6 (constantI S_ 32 0#32),
    StableHlo.unary main_c_6 main_v30 (broadcastInDim S1049600 ![] bcast_S_S1049600 : (⟨S_, .i32⟩ : BufTy).Contents (Elt F) → (⟨S1049600, .i32⟩ : BufTy).Contents (Elt F)),
    StableHlo.binary main_v11 main_v30 main_v31 (cmpi .slt : (⟨S1049600, .i32⟩ : BufTy).Contents (Elt F) → (⟨S1049600, .i32⟩ : BufTy).Contents (Elt F) → (⟨S1049600, .i1⟩ : BufTy).Contents (Elt F)),
    StableHlo.nullary main_c_7 (constantI S_ 32 1024#32),
    StableHlo.unary main_c_7 main_v32 (broadcastInDim S1049600 ![] bcast_S_S1049600 : (⟨S_, .i32⟩ : BufTy).Contents (Elt F) → (⟨S1049600, .i32⟩ : BufTy).Contents (Elt F)),
    StableHlo.binary main_v11 main_v32 main_v33 (addi : (⟨S1049600, .i32⟩ : BufTy).Contents (Elt F) → (⟨S1049600, .i32⟩ : BufTy).Contents (Elt F) → (⟨S1049600, .i32⟩ : BufTy).Contents (Elt F)),
    StableHlo.ternary main_v31 main_v33 main_v11 main_v34 (select : (⟨S1049600, .i1⟩ : BufTy).Contents (Elt F) → (⟨S1049600, .i32⟩ : BufTy).Contents (Elt F) → (⟨S1049600, .i32⟩ : BufTy).Contents (Elt F) → (⟨S1049600, .i32⟩ : BufTy).Contents (Elt F)),
    StableHlo.unary main_v34 main_v35 (broadcastInDim S1049600x1 ![0] bcast_S1049600_S1049600x1_0 : (⟨S1049600, .i32⟩ : BufTy).Contents (Elt F) → (⟨S1049600x1, .i32⟩ : BufTy).Contents (Elt F)),
    StableHlo.binary main_v29 main_v35 main_v36 ((fun x i => Host.gather gather_S1024_S1049600x1_S1049600_n_0_n_n_0_1_1 x i) : (⟨S1024, .f32⟩ : BufTy).Contents (Elt F) → (⟨S1049600x1, .i32⟩ : BufTy).Contents (Elt F) → (⟨S1049600, .f32⟩ : BufTy).Contents (Elt F)),
    StableHlo.nullary main_c_8 (constantI S_ 32 0#32),
    StableHlo.unary main_c_8 main_v37 (broadcastInDim S1049600 ![] bcast_S_S1049600 : (⟨S_, .i32⟩ : BufTy).Contents (Elt F) → (⟨S1049600, .i32⟩ : BufTy).Contents (Elt F)),
    StableHlo.binary main_v12 main_v37 main_v38 (cmpi .slt : (⟨S1049600, .i32⟩ : BufTy).Contents (Elt F) → (⟨S1049600, .i32⟩ : BufTy).Contents (Elt F) → (⟨S1049600, .i1⟩ : BufTy).Contents (Elt F)),
    StableHlo.nullary main_c_9 (constantI S_ 32 1024#32),
    StableHlo.unary main_c_9 main_v39 (broadcastInDim S1049600 ![] bcast_S_S1049600 : (⟨S_, .i32⟩ : BufTy).Contents (Elt F) → (⟨S1049600, .i32⟩ : BufTy).Contents (Elt F)),
    StableHlo.binary main_v12 main_v39 main_v40 (addi : (⟨S1049600, .i32⟩ : BufTy).Contents (Elt F) → (⟨S1049600, .i32⟩ : BufTy).Contents (Elt F) → (⟨S1049600, .i32⟩ : BufTy).Contents (Elt F)),
    StableHlo.ternary main_v38 main_v40 main_v12 main_v41 (select : (⟨S1049600, .i1⟩ : BufTy).Contents (Elt F) → (⟨S1049600, .i32⟩ : BufTy).Contents (Elt F) → (⟨S1049600, .i32⟩ : BufTy).Contents (Elt F) → (⟨S1049600, .i32⟩ : BufTy).Contents (Elt F)),
    StableHlo.unary main_v41 main_v42 (broadcastInDim S1049600x1 ![0] bcast_S1049600_S1049600x1_0 : (⟨S1049600, .i32⟩ : BufTy).Contents (Elt F) → (⟨S1049600x1, .i32⟩ : BufTy).Contents (Elt F)),
    StableHlo.binary main_v29 main_v42 main_v43 ((fun x i => Host.gather gather_S1024_S1049600x1_S1049600_n_0_n_n_0_1_1 x i) : (⟨S1024, .f32⟩ : BufTy).Contents (Elt F) → (⟨S1049600x1, .i32⟩ : BufTy).Contents (Elt F) → (⟨S1049600, .f32⟩ : BufTy).Contents (Elt F)),
    StableHlo.binary main_v36 main_v43 main_v44 (mulf : (⟨S1049600, .f32⟩ : BufTy).Contents (Elt F) → (⟨S1049600, .f32⟩ : BufTy).Contents (Elt F) → (⟨S1049600, .f32⟩ : BufTy).Contents (Elt F)),
    StableHlo.binary main_v44 main_v14 main_v45 (mulf : (⟨S1049600, .f32⟩ : BufTy).Contents (Elt F) → (⟨S1049600, .f32⟩ : BufTy).Contents (Elt F) → (⟨S1049600, .f32⟩ : BufTy).Contents (Elt F)),
    StableHlo.nullary main_cst_10 (constant S_ .f32 0x00000000#32),
    StableHlo.unary main_cst_10 main_v46 (broadcastInDim S1024x128 ![] bcast_S_S1024x128 : (⟨S_, .f32⟩ : BufTy).Contents (Elt F) → (⟨S1024x128, .f32⟩ : BufTy).Contents (Elt F)),
    StableHlo.unary main_v45 main_v47 (broadcastInDim S1049600x1 ![0] bcast_S1049600_S1049600x1_0 : (⟨S1049600, .f32⟩ : BufTy).Contents (Elt F) → (⟨S1049600x1, .f32⟩ : BufTy).Contents (Elt F)),
    StableHlo.nullary main_c_11 (constantI S_ 32 0#32),
    StableHlo.unary main_c_11 main_v48 (broadcastInDim S1049600 ![] bcast_S_S1049600 : (⟨S_, .i32⟩ : BufTy).Contents (Elt F) → (⟨S1049600, .i32⟩ : BufTy).Contents (Elt F)),
    StableHlo.binary main_v11 main_v48 main_v49 (cmpi .slt : (⟨S1049600, .i32⟩ : BufTy).Contents (Elt F) → (⟨S1049600, .i32⟩ : BufTy).Contents (Elt F) → (⟨S1049600, .i1⟩ : BufTy).Contents (Elt F)),
    StableHlo.nullary main_c_12 (constantI S_ 32 1024#32),
    StableHlo.unary main_c_12 main_v50 (broadcastInDim S1049600 ![] bcast_S_S1049600 : (⟨S_, .i32⟩ : BufTy).Contents (Elt F) → (⟨S1049600, .i32⟩ : BufTy).Contents (Elt F)),
    StableHlo.binary main_v11 main_v50 main_v51 (addi : (⟨S1049600, .i32⟩ : BufTy).Contents (Elt F) → (⟨S1049600, .i32⟩ : BufTy).Contents (Elt F) → (⟨S1049600, .i32⟩ : BufTy).Contents (Elt F)),
    StableHlo.ternary main_v49 main_v51 main_v11 main_v52 (select : (⟨S1049600, .i1⟩ : BufTy).Contents (Elt F) → (⟨S1049600, .i32⟩ : BufTy).Contents (Elt F) → (⟨S1049600, .i32⟩ : BufTy).Contents (Elt F) → (⟨S1049600, .i32⟩ : BufTy).Contents (Elt F)),
    StableHlo.unary main_v52 main_v53 (broadcastInDim S1049600x1 ![0] bcast_S1049600_S1049600x1_0 : (⟨S1049600, .i32⟩ : BufTy).Contents (Elt F) → (⟨S1049600x1, .i32⟩ : BufTy).Contents (Elt F)),
    StableHlo.binary main_v15 main_v53 main_v54 ((fun x i => Host.gather gather_S1024x128_S1049600x1_S1049600x128_1_0_n_n_0_1_1128 x i) : (⟨S1024x128, .f32⟩ : BufTy).Contents (Elt F) → (⟨S1049600x1, .i32⟩ : BufTy).Contents (Elt F) → (⟨S1049600x128, .f32⟩ : BufTy).Contents (Elt F)),
    StableHlo.unary main_v47 main_v55 (broadcastInDim S1049600x128 ![0, 1] bcast_S1049600x1_S1049600x128_0_1 : (⟨S1049600x1, .f32⟩ : BufTy).Contents (Elt F) → (⟨S1049600x128, .f32⟩ : BufTy).Contents (Elt F)),
    StableHlo.binary main_v55 main_v54 main_v56 (mulf : (⟨S1049600x128, .f32⟩ : BufTy).Contents (Elt F) → (⟨S1049600x128, .f32⟩ : BufTy).Contents (Elt F) → (⟨S1049600x128, .f32⟩ : BufTy).Contents (Elt F)),
    StableHlo.nullary main_c_13 (constantI S_ 32 0#32),
    StableHlo.unary main_c_13 main_v57 (broadcastInDim S1049600 ![] bcast_S_S1049600 : (⟨S_, .i32⟩ : BufTy).Contents (Elt F) → (⟨S1049600, .i32⟩ : BufTy).Contents (Elt F)),
    StableHlo.binary main_v12 main_v57 main_v58 (cmpi .slt : (⟨S1049600, .i32⟩ : BufTy).Contents (Elt F) → (⟨S1049600, .i32⟩ : BufTy).Contents (Elt F) → (⟨S1049600, .i1⟩ : BufTy).Contents (Elt F)),
    StableHlo.nullary main_c_14 (constantI S_ 32 1024#32),
    StableHlo.unary main_c_14 main_v59 (broadcastInDim S1049600 ![] bcast_S_S1049600 : (⟨S_, .i32⟩ : BufTy).Contents (Elt F) → (⟨S1049600, .i32⟩ : BufTy).Contents (Elt F)),
    StableHlo.binary main_v12 main_v59 main_v60 (addi : (⟨S1049600, .i32⟩ : BufTy).Contents (Elt F) → (⟨S1049600, .i32⟩ : BufTy).Contents (Elt F) → (⟨S1049600, .i32⟩ : BufTy).Contents (Elt F)),
    StableHlo.ternary main_v58 main_v60 main_v12 main_v61 (select : (⟨S1049600, .i1⟩ : BufTy).Contents (Elt F) → (⟨S1049600, .i32⟩ : BufTy).Contents (Elt F) → (⟨S1049600, .i32⟩ : BufTy).Contents (Elt F) → (⟨S1049600, .i32⟩ : BufTy).Contents (Elt F)),
    StableHlo.unary main_v61 main_v62 (broadcastInDim S1049600x1 ![0] bcast_S1049600_S1049600x1_0 : (⟨S1049600, .i32⟩ : BufTy).Contents (Elt F) → (⟨S1049600x1, .i32⟩ : BufTy).Contents (Elt F)),
    StableHlo.ternary main_v46 main_v62 main_v56 main_v63 ((fun x i u => Host.scatterAdd scatter_S1024x128_S1049600x1_S1049600x128_1_0_0_1 x i u) : (⟨S1024x128, .f32⟩ : BufTy).Contents (Elt F) → (⟨S1049600x1, .i32⟩ : BufTy).Contents (Elt F) → (⟨S1049600x128, .f32⟩ : BufTy).Contents (Elt F) → (⟨S1024x128, .f32⟩ : BufTy).Contents (Elt F)),
    StableHlo.unary main_arg3 main_v64 (broadcastInDim S1x128 ![1] bcast_S128_S1x128_1 : (⟨S128, .f32⟩ : BufTy).Contents (Elt F) → (⟨S1x128, .f32⟩ : BufTy).Contents (Elt F)),
    StableHlo.unary main_v64 main_v65 (broadcastInDim S1024x128 ![0, 1] bcast_S1x128_S1024x128_0_1 : (⟨S1x128, .f32⟩ : BufTy).Contents (Elt F) → (⟨S1024x128, .f32⟩ : BufTy).Contents (Elt F)),
    StableHlo.binary main_v63 main_v65 main_v66 (addf : (⟨S1024x128, .f32⟩ : BufTy).Contents (Elt F) → (⟨S1024x128, .f32⟩ : BufTy).Contents (Elt F) → (⟨S1024x128, .f32⟩ : BufTy).Contents (Elt F)),
    StableHlo.reshape main_v66 main_v67 rfl shapeCasts_S1024x128_S4x256x128,
    StableHlo.nullary main_cst_15 (constant S_ .f32 0x3C23D70A#32),
    TRef.nullary main_call1.cst (constant S_ .f32 0x00000000#32),
    TRef.unary main_call1.cst main_call1.v0 (broadcastInDim S4x256x128 ![] bcast_S_S4x256x128),
    TRef.binary (.of main_v67 : TRef sig ⟨S4x256x128, .f32⟩) main_call1.v0 main_call1.v1 (cmpf .oge),
    TRef.unary (.of main_cst_15 : TRef sig ⟨S_, .f32⟩) main_call1.v2 id,
    TRef.unary main_call1.v2 main_call1.v3 (broadcastInDim S4x256x128 ![] bcast_S_S4x256x128),
    TRef.binary main_call1.v3 (.of main_v67 : TRef sig ⟨S4x256x128, .f32⟩) main_call1.v4 mulf,
    TRef.ternary main_call1.v1 (.of main_v67 : TRef sig ⟨S4x256x128, .f32⟩) main_call1.v4 main_call1.call0.v0 select ]

-- ninety-five binds re-associated: the rewrite under the chain recurses once per statement
set_option maxRecDepth 4096 in
set_option maxHeartbeats 4000000 in
/-- @main is that straight line: its two windows and the called functions' definitions unfolded where they are
    applied, both sides are one chain of steps once sequencing is re-associated. -/
theorem main_eq (c : Dev nD) : main (F := F) c = seq ops := by
  simp only [main, main_part0, main_part1, fn_where.body, fn_leaky_relu.body, fn_where_0.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨reshape_bufs_sub .., nullary_bufs_sub .., unary_bufs_sub .., reshape_bufs_sub .., reshape_bufs_sub .., unary_bufs_sub ..,
    reshape_bufs_sub .., reshape_bufs_sub .., nullary_bufs_sub .., unary_bufs_sub .., binary_bufs_sub .., unary_bufs_sub ..,
    binary_bufs_sub .., binary_bufs_sub .., nullary_bufs_sub .., unary_bufs_sub .., binary_bufs_sub .., binary_bufs_sub ..,
    nullary_bufs_sub .., unary_bufs_sub .., nullary_bufs_sub .., unary_bufs_sub .., binary_bufs_sub .., nullary_bufs_sub ..,
    unary_bufs_sub .., binary_bufs_sub .., ternary_bufs_sub .., unary_bufs_sub .., ternary_bufs_sub .., nullary_bufs_sub ..,
    unary_bufs_sub .., binary_bufs_sub .., unary_bufs_sub .., nullary_bufs_sub .., unary_bufs_sub .., binary_bufs_sub ..,
    nullary_bufs_sub .., unary_bufs_sub .., unary_bufs_sub .., ternary_bufs_sub .., nullary_bufs_sub .., unary_bufs_sub ..,
    binary_bufs_sub .., nullary_bufs_sub .., unary_bufs_sub .., binary_bufs_sub .., ternary_bufs_sub .., unary_bufs_sub ..,
    binary_bufs_sub .., nullary_bufs_sub .., unary_bufs_sub .., binary_bufs_sub .., nullary_bufs_sub .., unary_bufs_sub ..,
    binary_bufs_sub .., ternary_bufs_sub .., unary_bufs_sub .., binary_bufs_sub .., binary_bufs_sub .., binary_bufs_sub ..,
    nullary_bufs_sub .., unary_bufs_sub .., unary_bufs_sub .., nullary_bufs_sub .., unary_bufs_sub .., binary_bufs_sub ..,
    nullary_bufs_sub .., unary_bufs_sub .., binary_bufs_sub .., ternary_bufs_sub .., unary_bufs_sub .., binary_bufs_sub ..,
    unary_bufs_sub .., binary_bufs_sub .., nullary_bufs_sub .., unary_bufs_sub .., binary_bufs_sub .., nullary_bufs_sub ..,
    unary_bufs_sub .., binary_bufs_sub .., ternary_bufs_sub .., unary_bufs_sub .., ternary_bufs_sub .., unary_bufs_sub ..,
    unary_bufs_sub .., binary_bufs_sub .., reshape_bufs_sub .., nullary_bufs_sub .., nullary_bufs_sub .., unary_bufs_sub ..,
    binary_bufs_sub .., unary_bufs_sub .., unary_bufs_sub .., binary_bufs_sub .., ternary_bufs_sub ..⟩

attribute [local irreducible] Host.gather Host.scatter concatenate in
set_option maxRecDepth 16384 in
set_option maxHeartbeats 4000000 in
/-- The fold of the operations' results at the result buffer is the staged term of the four argument arrays.
    One rewriting pass replaces each operation's result at its own buffer by its function's value at the
    operands' contents, and at any other buffer by what was there (two buffers are told apart as references);
    every intermediate value is visited once, however many operations read it (the destination words are read
    nine times, the source words six). What remains differs from the staged term only by the stages'
    definitions, by the reshapes written as functions of the index, and by the typed references' transports,
    which are the identity at literal references: all of it definitional. The gathers and the concatenations
    stay folded throughout (the scatter-adds and the contraction are the float operations' own, which nothing
    here opens): the equation never looks inside an array of a million elements. -/
theorem out_eq (V : Valuation τ sig (Elt F)) :
    after ops V (main_v68 : DevRef τ sig)
      = RefTerm.out (V (main_arg0 : DevRef τ sig)) (V (main_arg1 : DevRef τ sig)) (V (main_arg2 : DevRef τ sig))
          (V (main_arg3 : DevRef τ sig)) := by
  after_results_simp
  rfl

set_option maxRecDepth 16384 in
/-- No operation writes argument 0's buffer: it ends as it began. -/
theorem arg0_eq (V : Valuation τ sig (Elt F)) :
    after ops V (main_arg0 : DevRef τ sig) = V (main_arg0 : DevRef τ sig) := by
  simp only [after_cons, after_nil]
  rfl

set_option maxRecDepth 16384 in
/-- No operation writes argument 1's buffer: it ends as it began. -/
theorem arg1_eq (V : Valuation τ sig (Elt F)) :
    after ops V (main_arg1 : DevRef τ sig) = V (main_arg1 : DevRef τ sig) := by
  simp only [after_cons, after_nil]
  rfl

set_option maxRecDepth 16384 in
/-- No operation writes argument 2's buffer: it ends as it began. -/
theorem arg2_eq (V : Valuation τ sig (Elt F)) :
    after ops V (main_arg2 : DevRef τ sig) = V (main_arg2 : DevRef τ sig) := by
  simp only [after_cons, after_nil]
  rfl

set_option maxRecDepth 16384 in
/-- No operation writes argument 3's buffer: it ends as it began. -/
theorem arg3_eq (V : Valuation τ sig (Elt F)) :
    after ops V (main_arg3 : DevRef τ sig) = V (main_arg3 : DevRef τ sig) := by
  simp only [after_cons, after_nil]
  rfl

/-- On every device, for any float values, from any memory with zero counters: every weakly fair execution of
    @main terminates with the result buffer at the staged term of the four argument arrays' launch contents,
    and the argument arrays unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v68)
        = RefTerm.out (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v68).trans (out_eq _),
      (h c main_arg0).trans (arg0_eq _),
      (h c main_arg1).trans (arg1_eq _),
      (h c main_arg2).trans (arg2_eq _),
      (h c main_arg3).trans (arg3_eq _)⟩)
    (run_seq scopedRefs_eq scopedSems_eq defs main (fun _ => ops) main_eq (fun _ => ops_sub) m ρ)

end Cert.ReferenceIdeal.RefRun

end
-- ==== Proof.LibPlainMatmul.lean ====
/-
  A kernel's plain matrix product read at an entry, at the extended reals.
-/
import Idealize.ShloMosaic.Lib.StackMember
import Idealize.ShloMosaic.Lib.KernelVsHost

noncomputable section

namespace Cert.LibPlainMatmul

open Idealize.ShloMosaic Idealize.ShloMosaic.ValueIdx

/-- The product of an m×k block by a k×n block (rows by columns, no batch axis) accumulated into the zero block: its
    entry (a, b) is the sum over the contracted coordinate of the products of the entries — the accumulator adds nothing
    and, on the extended reals, nothing is rounded and no order of the summands is left. Generic in the three extents,
    the two operand formats and the precision key. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant (F := Ideal) ⟨2, ![m, n]⟩ .f32 0x00000000#32) (ix2 a b)
      = ∑ c : Fin k, A (ix2 a c) * B (ix2 c b) := by
  rw [matmul_zero_eq_dotGeneral]
  exact StackMember.dotGeneral_plain_apply prec A B a b

end Cert.LibPlainMatmul

end
-- ==== Proof.LibTnMatmul.lean ====
/-
  A product against a transposed LEFT operand, read at an entry, at the extended reals.

  A kernel's `Aᵀ · B` (a column sum `Aᵀ · 1`, a neighbourhood sum `Aᵀ · H`) prints as a matrix product whose dimension
  numbers contract the FIRST axis of both operands (columns of the left against columns of the right).  Accumulated into
  the zero block, its entry (a, b) is the sum over the shared first axis of the products of the entries: the accumulator
  adds nothing and, on the extended reals, nothing is rounded and no order of the summands is left.  Generic in the three
  extents, the two operand formats and the precision key.
-/
import Idealize.ShloMosaic.Lib.ValueIdx
import Idealize.ShloMosaic.PureOps.Ideal.Laws

noncomputable section

open scoped BigOperators

namespace Cert.LibTnMatmul

open Idealize.ShloMosaic Idealize.ShloMosaic.ValueIdx

/-- The dimension numbers of `Aᵀ · B` for a k×m left operand and a k×n right operand: axis 0 of both contracted, the
    result's rows the left operand's columns, its columns the right operand's. -/
abbrev tnDims (k m n : Nat)
    (wf : DotDims.WF ⟨2, ![k, m]⟩ ⟨2, ![k, n]⟩ ⟨2, ![m, n]⟩ [0] [0] [1] [1] [] []) :
    DotDims ⟨2, ![k, m]⟩ ⟨2, ![k, n]⟩ ⟨2, ![m, n]⟩ where
  lhsContracting := [0]
  rhsContracting := [0]
  lhsNonContracting := [1]
  rhsNonContracting := [1]
  lhsBatch := []
  rhsBatch := []
  wf := wf

/-- `Aᵀ · B` of a k×m block by a k×n block into the zero block: entry `(a, b)` is `Σ_c A(c,a)·B(c,b)`. -/
theorem matmul_tn_zero_apply {k m n : Nat} {φ₁ φ₂ : FTy}
    (wf : DotDims.WF ⟨2, ![k, m]⟩ ⟨2, ![k, n]⟩ ⟨2, ![m, n]⟩ [0] [0] [1] [1] [] [])
    (prec : Option ContractPrecision)
    (A : FVec Ideal ⟨2, ![k, m]⟩ φ₁) (B : FVec Ideal ⟨2, ![k, n]⟩ φ₂) (a : Fin m) (b : Fin n) :
    matmul (tnDims k m n wf) prec A B (constant (F := Ideal) ⟨2, ![m, n]⟩ .f32 0x00000000#32) (ix2 a b)
      = ∑ c : Fin k, A (ix2 c a) * B (ix2 c b) := by
  show FloatOps.matmul _ prec A B _ (ix2 a b) = _
  rw [Ideal.matmul_constant_zero_apply, ← Equiv.sum_comp (contrEquiv1 (tnDims k m n wf) k rfl rfl).symm]
  refine Finset.sum_congr rfl fun c _ => ?_
  have c2 := contrEquiv1_symm_val (tnDims k m n wf) k rfl rfl c
  have l2 : (tnDims k m n wf).lhsIdx (ix2 a b) ((contrEquiv1 _ k rfl rfl).symm c) = ix2 c a := by
    funext ax; apply Fin.ext
    match ax with
    | ⟨0, _⟩ => simp [DotDims.lhsIdx, tnDims]; exact c2
    | ⟨1, _⟩ => simp [DotDims.lhsIdx, tnDims]; rfl
  have r2 : (tnDims k m n wf).rhsIdx (ix2 a b) ((contrEquiv1 _ k rfl rfl).symm c) = ix2 c b := by
    funext ax; apply Fin.ext
    match ax with
    | ⟨0, _⟩ => simp [DotDims.rhsIdx, tnDims]; exact c2
    | ⟨1, _⟩ => simp [DotDims.rhsIdx, tnDims]; rfl
  rw [l2, r2]

end Cert.LibTnMatmul

end
-- ==== Proof.LibDegreeLaws.lean ====
/-
  Scalar facts on the extended reals that the layer's two forms meet at.

  * The word 0x3F800000 is the number 1 (0x00000000 is 0: the library's `Ideal.ofBits_zero_f32`).
  * An adjacency entry's test "nonzero" is read as a number in two ways — the one-bit test widened to 32 bits and
    read signed, or the one-bit test read unsigned —: both are the indicator 1 (nonzero) / 0 (zero).
  * For a degree 1 + s with s ≥ 0 real, the reciprocal square root is the real number 1 / sqrt (1 + s), and so is
    "1 / sqrt deg where deg > 0, else 0": the degree is positive, so the guard takes the quotient, and the square
    root is not zero, so the quotient is the product with its reciprocal.
-/
import Idealize.ShloMosaic.PureOps.Ideal
import Idealize.ShloMosaic.PureOps.Ideal.Laws

noncomputable section

namespace Cert.ScalarLaws

open Idealize.ShloMosaic

/-- The word of 1.0 denotes the real number 1. -/
theorem ofBits_one : Ideal.ofBits .f32 0x3F800000#32 = ((1 : ℝ) : EReal) := by
  simp [Ideal.ofBits, Ideal.ieee, -EReal.coe_mul]; norm_num

/-- The indicator of a nonzero word. -/
def ind (v : BitVec 32) : ℝ := if v = 0#32 then 0 else 1

theorem ind_nonneg (v : BitVec 32) : 0 ≤ ind v := by
  unfold ind; split <;> norm_num

/-- The test, widened to 32 bits and read signed, is the indicator. -/
theorem signed_test (v : BitVec 32) :
    ((((IntOp.cmpi .ne v 0#32).setWidth 32).toInt : ℝ) : EReal) = ((ind v : ℝ) : EReal) := by
  unfold ind IntOp.cmpi
  by_cases h : v = 0#32
  · subst h; simp
  · have hb : (v != 0#32) = true := by simpa using h
    simp [hb, h]

/-- The test read unsigned is the indicator. -/
theorem unsigned_test (v : BitVec 32) :
    (((IntOp.cmpi .ne v 0#32).toNat : ℝ) : EReal) = ((ind v : ℝ) : EReal) := by
  unfold ind IntOp.cmpi
  by_cases h : v = 0#32
  · subst h; simp
  · have hb : (v != 0#32) = true := by simpa using h
    simp [hb, h]

/-- The reciprocal square root of the degree 1 + s. -/
def dinvR (s : ℝ) : ℝ := (Real.sqrt (s + 1))⁻¹

/-- The kernel's form: rsqrt (s + 1). -/
theorem rsqrt_deg (s : ℝ) (hs : 0 ≤ s) :
    Ideal.rsqrt (((s : ℝ) : EReal) + ((1 : ℝ) : EReal)) = ((dinvR s : ℝ) : EReal) := by
  rw [← EReal.coe_add, Ideal.rsqrt_coe, if_neg (by linarith), if_neg (by linarith)]
  rfl

/-- The reference's form: 1 / sqrt deg where deg > 0, else 0, at deg = 0 + (s + 1). -/
theorem guarded_deg (s : ℝ) (hs : 0 ≤ s) :
    Scalar.select (Ideal.cmp .ogt ((0 : EReal) + (((s : ℝ) : EReal) + ((1 : ℝ) : EReal))) 0)
        (Ideal.div ((1 : ℝ) : EReal) (Ideal.sqrt ((0 : EReal) + (((s : ℝ) : EReal) + ((1 : ℝ) : EReal))))) (0 : EReal)
      = ((dinvR s : ℝ) : EReal) := by
  have hpos : (0 : ℝ) < s + 1 := by linarith
  have hsq : Real.sqrt (s + 1) ≠ 0 := (Real.sqrt_pos.mpr hpos).ne'
  rw [zero_add, ← EReal.coe_add, Ideal.sqrt_coe, if_neg (by linarith), Ideal.div_coe hsq]
  have hc : Ideal.cmp .ogt (((s + 1 : ℝ)) : EReal) 0 = 1#1 := by
    have hlt : (0 : EReal) < ((s + 1 : ℝ) : EReal) := by exact_mod_cast hpos
    show BitVec.ofBool (decide ((0 : EReal) < ((s + 1 : ℝ) : EReal))) = 1#1
    rw [decide_eq_true hlt]
    rfl
  rw [hc]
  show (if (1#1 : BitVec 1) = 1 then _ else _) = _
  rw [if_pos (by decide : (1#1 : BitVec 1) = 1), ← EReal.coe_mul]
  unfold dinvR
  congr 1
  rw [one_mul, one_div]

end Cert.ScalarLaws

end
-- ==== Proof.LibLayerLaw.lean ====
/-
  The algebra that joins a dense and an edge-list form of one graph-convolution layer.

  The graph has n nodes and n² + n edges: edge i·n + j runs from node i to node j (every ordered pair, with a weight
  that may be zero), edge n² + i is the self-loop of node i.  A sum over all edges is the double sum over the ordered
  pairs plus the sum over the self-loops; a sum over the edges ENTERING one node p keeps, of the pairs, the column j = p
  and, of the self-loops, the one of p.  With real weights a, real features h and a real scaling d, the layer written
  as "scale the features, add up the neighbours and the node itself, scale again" equals the layer written as "add up
  the neighbours' features each times its edge's normalised weight": this is distributivity, which holds on the real
  numbers and not on all extended reals, so it is stated for images of reals.
-/
import Idealize.ShloMosaic.PureOps.Ideal

noncomputable section

open scoped BigOperators

namespace Cert.LayerLaw

/-- The extended-real image of a finite real sum is the sum of the images. -/
theorem coe_sum {ι : Type*} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- An ordered pair's edge number is an edge number. -/
theorem pair_lt {n E : ℕ} (hE : E = n * n + n) (i j : Fin n) : i.val * n + j.val < E := by
  have h1 : (i.val + 1) * n ≤ n * n := Nat.mul_le_mul_right n i.isLt
  have h2 : (i.val + 1) * n = i.val * n + n := Nat.succ_mul _ _
  have := j.isLt
  omega

/-- A self-loop's edge number is an edge number. -/
theorem loop_lt {n E : ℕ} (hE : E = n * n + n) (i : Fin n) : n * n + i.val < E := by
  have := i.isLt
  omega

/-- The edge of the ordered pair (i, j). -/
def pairE {n E : ℕ} (hE : E = n * n + n) (i j : Fin n) : Fin E := ⟨i.val * n + j.val, pair_lt hE i j⟩

/-- The self-loop of node i. -/
def loopE {n E : ℕ} (hE : E = n * n + n) (i : Fin n) : Fin E := ⟨n * n + i.val, loop_lt hE i⟩

/-- A sum over all n² + n edges is the double sum over the ordered pairs plus the sum over the self-loops. -/
theorem sum_edges {M : Type*} [AddCommMonoid M] {n E : ℕ} (hE : E = n * n + n) (f : Fin E → M) :
    ∑ e, f e = (∑ i : Fin n, ∑ j : Fin n, f (pairE hE i j)) + ∑ i : Fin n, f (loopE hE i) := by
  subst hE
  rw [Fin.sum_univ_add]
  congr 1
  · rw [← Equiv.sum_comp finProdFinEquiv, Fintype.sum_prod_type]
    refine Finset.sum_congr rfl fun i _ => Finset.sum_congr rfl fun j _ => congrArg f (Fin.ext ?_)
    simp only [pairE, finProdFinEquiv, Equiv.coe_fn_mk, Fin.coe_castAdd]
    rw [Nat.mul_comm, Nat.add_comm]

/-- Of the edges entering node p the pairs keep the column j = p and the self-loops the one of p. -/
theorem sum_entering {M : Type*} [AddCommMonoid M] {n : ℕ} (p : Fin n) (f : Fin n → Fin n → M) (g : Fin n → M) :
    (∑ i : Fin n, ∑ j : Fin n, if j = p then f i j else 0) + (∑ i : Fin n, if i = p then g i else 0)
      = (∑ i : Fin n, f i p) + g p := by
  congr 1
  · refine Finset.sum_congr rfl fun i _ => ?_
    rw [Finset.sum_ite_eq' Finset.univ p (fun j => f i j), if_pos (Finset.mem_univ p)]
  · rw [Finset.sum_ite_eq' Finset.univ p g, if_pos (Finset.mem_univ p)]

/-- THE LAYER LAW on images of reals: scaling the features by d, adding up a node's neighbours (weights a) and the
    node itself, and scaling by the node's d again, is adding up the neighbours' features each times d·d·a and the
    node's own times d·d·1. -/
theorem layer_law {ι : Type*} [Fintype ι] (a h d : ι → ℝ) (hp dp : ℝ) :
    ((∑ i, ((a i : ℝ) : EReal) * (((h i : ℝ) : EReal) * ((d i : ℝ) : EReal))) + ((hp : ℝ) : EReal) * ((dp : ℝ) : EReal))
        * ((dp : ℝ) : EReal)
      = (∑ i, ((((d i : ℝ) : EReal) * ((dp : ℝ) : EReal)) * ((a i : ℝ) : EReal)) * ((h i : ℝ) : EReal))
        + ((((dp : ℝ) : EReal) * ((dp : ℝ) : EReal)) * ((1 : ℝ) : EReal)) * ((hp : ℝ) : EReal) := by
  simp only [← EReal.coe_mul, ← coe_sum, ← EReal.coe_add]
  refine congrArg (fun r : ℝ => (r : EReal)) ?_
  rw [add_mul, Finset.sum_mul]
  congr 1
  · exact Finset.sum_congr rfl fun i _ => by ring
  · ring

end Cert.LayerLaw

end
-- ==== Proof.KernelReads.lean ====
/-
  The kernel's one stored value, read entry by entry.  With a(i, j) the indicator of a nonzero adjacency entry, the body
  computes the features h = x₂ · W, the column d j = rsqrt (Σ_i a(i, j)·1 + 1) (a column sum written as Aᵀ · 1), the
  scaled features s(i, q) = h(i, q) · d i, the neighbourhood sum Aᵀ · s, and stores the leaky rectifier of
      z(p, q) = ((Σ_i a(i, p) · s(i, q)) + s(p, q)) · d p + b q .
  The stages are named here so that the payload is their composition by unfolding alone; each is then read at an index.
-/
import proofs.«175754_g9603546874456_fold_wed_m_582_2_alg».proof.Proof.Gen.KernelIdeal.Skeleton
import proofs.«175754_g9603546874456_fold_wed_m_582_2_alg».proof.Proof.LibPlainMatmul
import proofs.«175754_g9603546874456_fold_wed_m_582_2_alg».proof.Proof.LibTnMatmul
import proofs.«175754_g9603546874456_fold_wed_m_582_2_alg».proof.Proof.LibDegreeLaws
import proofs.«175754_g9603546874456_fold_wed_m_582_2_alg».proof.Proof.LibLayerLaw
import Idealize.ShloMosaic.Lib.Pipeline.Value
import Idealize.ShloMosaic.Lib.ValueIdx

noncomputable section

open scoped BigOperators

namespace Cert.KernelIdeal.KernelReads

open Cert.KernelIdeal Cert.KernelIdeal.Gen Idealize.ShloMosaic Idealize.ShloMosaic.ValueIdx
open Cert.ScalarLaws Cert.LayerLaw

/-- The adjacency as numbers: 1 where an entry is nonzero, else 0. -/
def adjF (adj : IVec S1024x1024 32) : FVec Ideal S1024x1024 .f32 :=
  sitofp .f32 (extui 32 (cmpi .ne adj (broadcast S1024x1024 0#32)) natLt_1_32)

/-- The features h = x₂ · W. -/
def feat (x2 : FVec Ideal S1024x128 .f32) (W : FVec Ideal S128x128 .f32) : FVec Ideal S1024x128 .f32 :=
  matmul dot_S1024x128_S128x128_S1024x128_1_0_0_1_n_n none
    (shapeCast S1024x128 x2 shapeCasts_S1024x128_S1024x128) W (constant (F := Ideal) S1024x128 .f32 0x00000000#32)

/-- The scaling column d = rsqrt (Aᵀ · 1 + 1). -/
def dcol (adj : IVec S1024x1024 32) : FVec Ideal S1024x1 .f32 :=
  rsqrt (addf (matmul dot_S1024x1024_S1024x1_S1024x1_0_0_1_1_n_n none (adjF adj)
      (broadcast S1024x1 (Scalar.ofBits (F := Ideal) .f32 0x3F800000#32)) (constant (F := Ideal) S1024x1 .f32 0x00000000#32))
    (broadcast S1024x1 (Scalar.ofBits (F := Ideal) .f32 0x3F800000#32)))

/-- The scaled features s = h · d (d repeated along the features). -/
def scaled (adj : IVec S1024x1024 32) (x2 : FVec Ideal S1024x128 .f32) (W : FVec Ideal S128x128 .f32) :
    FVec Ideal S1024x128 .f32 :=
  mulf (feat x2 W) (broadcastTo S1024x128 (dcol adj) broadcasts_S1024x1_S1024x128)

/-- The layer before its activation. -/
def pre (adj : IVec S1024x1024 32) (x2 : FVec Ideal S1024x128 .f32) (W : FVec Ideal S128x128 .f32)
    (b2 : FVec Ideal S1x128 .f32) : FVec Ideal S1024x128 .f32 :=
  addf (mulf (addf (matmul dot_S1024x1024_S1024x128_S1024x128_0_0_1_1_n_n none (adjF adj) (scaled adj x2 W)
          (constant (F := Ideal) S1024x128 .f32 0x00000000#32)) (scaled adj x2 W))
        (broadcastTo S1024x128 (dcol adj) broadcasts_S1024x1_S1024x128))
    (broadcastTo S1024x128 (shapeCast S1x128 b2 shapeCasts_S1x128_S1x128) broadcasts_S1x128_S1024x128)

/-- The stored value is the leaky rectifier of that array. -/
theorem pay_eq (adj : IVec S1024x1024 32) (x2 : FVec Ideal S1024x128 .f32) (W : FVec Ideal S128x128 .f32)
    (b2 : FVec Ideal S1x128 .f32) :
    k0_pay1 (F := Ideal) adj x2 W b2
      = select (cmpf .oge (pre adj x2 W b2) (broadcast S1024x128 (Scalar.ofBits (F := Ideal) .f32 0x00000000#32)))
          (pre adj x2 W b2)
          (mulf (broadcast S1024x128 (Scalar.ofBits (F := Ideal) .f32 0x3C23D70A#32)) (pre adj x2 W b2)) := rfl

/-- A column [1024, 1] repeated along 128 features reads, at (p, q), the column's entry p. -/
theorem colBcast_apply (v : FVec Ideal S1024x1 .f32) (p : Fin 1024) (q : Fin 128) :
    broadcastTo S1024x128 v broadcasts_S1024x1_S1024x128 (ix2 p q) = v (ix2 p (0 : Fin 1)) :=
  broadcastTo_apply v broadcasts_S1024x1_S1024x128 (ix2 p q) (ix2 p (0 : Fin 1)) (fun a => match a with
    | ⟨0, _⟩ => by show p.val = if (1024 : ℕ) = 1 then 0 else p.val; rw [if_neg (by decide)]
    | ⟨1, _⟩ => by show 0 = if (1 : ℕ) = 1 then 0 else q.val; rw [if_pos rfl])

/-- A row [1, 128] repeated for 1024 nodes reads, at (p, q), the row's entry q. -/
theorem rowBcast_apply (v : FVec Ideal S1x128 .f32) (p : Fin 1024) (q : Fin 128) :
    broadcastTo S1024x128 v broadcasts_S1x128_S1024x128 (ix2 p q) = v (ix2 (0 : Fin 1) q) :=
  broadcastTo_apply v broadcasts_S1x128_S1024x128 (ix2 p q) (ix2 (0 : Fin 1) q) (fun a => match a with
    | ⟨0, _⟩ => by show 0 = if (1 : ℕ) = 1 then 0 else p.val; rw [if_pos rfl]
    | ⟨1, _⟩ => by show q.val = if (128 : ℕ) = 1 then 0 else q.val; rw [if_neg (by decide)])

theorem adjF_apply (adj : IVec S1024x1024 32) (i j : Fin 1024) :
    adjF adj (ix2 i j) = ((ind (adj (ix2 i j)) : ℝ) : EReal) :=
  signed_test (adj (ix2 i j))

theorem feat_apply (x2 : FVec Ideal S1024x128 .f32) (W : FVec Ideal S128x128 .f32) (i : Fin 1024) (q : Fin 128) :
    feat x2 W (ix2 i q) = ∑ k : Fin 128, x2 (ix2 i k) * W (ix2 k q) := by
  unfold feat
  rw [shapeCast_self]
  exact Cert.LibPlainMatmul.matmul_plain_zero_apply none x2 W i q

/-- The word of 1.0 as the kernel spells it. -/
theorem one_eq : Scalar.ofBits (F := Ideal) .f32 0x3F800000#32 = ((1 : ℝ) : EReal) := ofBits_one

/-- The column sum of the indicators of column j. -/
def colSum (adj : IVec S1024x1024 32) (j : Fin 1024) : ℝ := ∑ i : Fin 1024, ind (adj (ix2 i j))

theorem colSum_nonneg (adj : IVec S1024x1024 32) (j : Fin 1024) : 0 ≤ colSum adj j :=
  Finset.sum_nonneg fun i _ => ind_nonneg _

theorem dcol_apply (adj : IVec S1024x1024 32) (j : Fin 1024) :
    dcol adj (ix2 j (0 : Fin 1)) = ((dinvR (colSum adj j) : ℝ) : EReal) := by
  have hm := Cert.LibTnMatmul.matmul_tn_zero_apply (k := 1024) (m := 1024) (n := 1)
    dot_S1024x1024_S1024x1_S1024x1_0_0_1_1_n_n_wf none (adjF adj)
    (broadcast S1024x1 (Scalar.ofBits (F := Ideal) .f32 0x3F800000#32)) j (0 : Fin 1)
  refine (congrArg (fun z : EReal => Ideal.rsqrt (z + Scalar.ofBits (F := Ideal) .f32 0x3F800000#32)) hm).trans ?_
  simp only [adjF_apply, broadcast_apply, one_eq, ← EReal.coe_mul, mul_one, ← coe_sum]
  exact rsqrt_deg _ (colSum_nonneg adj j)

theorem scaled_apply (adj : IVec S1024x1024 32) (x2 : FVec Ideal S1024x128 .f32) (W : FVec Ideal S128x128 .f32)
    (i : Fin 1024) (q : Fin 128) :
    scaled adj x2 W (ix2 i q) = feat x2 W (ix2 i q) * ((dinvR (colSum adj i) : ℝ) : EReal) := by
  show feat x2 W (ix2 i q) * broadcastTo S1024x128 (dcol adj) broadcasts_S1024x1_S1024x128 (ix2 i q) = _
  rw [colBcast_apply, dcol_apply]

theorem pre_apply (adj : IVec S1024x1024 32) (x2 : FVec Ideal S1024x128 .f32) (W : FVec Ideal S128x128 .f32)
    (b2 : FVec Ideal S1x128 .f32) (p : Fin 1024) (q : Fin 128) :
    pre adj x2 W b2 (ix2 p q)
      = ((∑ i : Fin 1024, ((ind (adj (ix2 i p)) : ℝ) : EReal)
              * (feat x2 W (ix2 i q) * ((dinvR (colSum adj i) : ℝ) : EReal)))
            + feat x2 W (ix2 p q) * ((dinvR (colSum adj p) : ℝ) : EReal))
          * ((dinvR (colSum adj p) : ℝ) : EReal)
        + b2 (ix2 (0 : Fin 1) q) := by
  have hm := Cert.LibTnMatmul.matmul_tn_zero_apply (k := 1024) (m := 1024) (n := 128)
    dot_S1024x1024_S1024x128_S1024x128_0_0_1_1_n_n_wf none (adjF adj) (scaled adj x2 W) p q
  show (matmul dot_S1024x1024_S1024x128_S1024x128_0_0_1_1_n_n none (adjF adj) (scaled adj x2 W)
          (constant (F := Ideal) S1024x128 .f32 0x00000000#32) (ix2 p q) + scaled adj x2 W (ix2 p q))
        * broadcastTo S1024x128 (dcol adj) broadcasts_S1024x1_S1024x128 (ix2 p q)
      + broadcastTo S1024x128 (shapeCast S1x128 b2 shapeCasts_S1x128_S1x128) broadcasts_S1x128_S1024x128 (ix2 p q) = _
  rw [show matmul dot_S1024x1024_S1024x128_S1024x128_0_0_1_1_n_n none (adjF adj) (scaled adj x2 W)
          (constant (F := Ideal) S1024x128 .f32 0x00000000#32) (ix2 p q) = _ from hm,
    colBcast_apply, dcol_apply, rowBcast_apply, shapeCast_self]
  simp only [adjF_apply, scaled_apply]

end Cert.KernelIdeal.KernelReads

end
-- ==== Proof.LibRowIndexing.lean ====
/-
  Row gather and accumulating row scatter read at an index, for the dimension numbers that `x[idx]` and
  `segment_sum` lower to.

  A table `x : [N, F]` (or a flat array `[N]`) is indexed by an integer column `idx : [E, 1]`.
  * GATHER: result row `e` is the table's row at `idx[e, 0]`, the index read as a signed integer and clamped
    into `[0, N − 1]` (every start index of a gather is clamped so that its slice fits).
  * SCATTER with an `add` body, at the ideal instance: element `(r, f)` of the result is the operand's element plus
    the sum of the updates `upd[e, f]` over the edges `e` whose index `idx[e, 0]`, read signed and NOT clamped, is `r`;
    an index outside `[0, N)` lands nowhere and contributes nothing.
  Shapes are parameters, so each statement serves every literal shape of a program; a program's own record of
  dimension numbers is one of the records below by `rfl`.
-/
import Idealize.ShloMosaic.PureOps.Ideal
import Idealize.ShloMosaic.Lib.ValueIdx

noncomputable section

namespace Cert.Gcn

open Idealize.ShloMosaic Idealize.ShloMosaic.ValueIdx

/-! ## Gather -/

section Gather
variable {α : Type}

/-- The dimension numbers of `x[idx]` for a table `[N, F]` and an index column `[E, 1]`: the row axis collapsed
    and indexed, the feature axis kept whole. -/
abbrev rowGatherDims (N E F : Nat)
    (wf : GatherDims.WF ⟨2, ![N, F]⟩ ⟨2, ![E, 1]⟩ ⟨2, ![E, F]⟩ [1] [0] [] [0] [] 1 ![1, F]) :
    GatherDims ⟨2, ![N, F]⟩ ⟨2, ![E, 1]⟩ ⟨2, ![E, F]⟩ where
  offsetDims := [1]
  collapsedSliceDims := [0]
  operandBatchingDims := []
  startIndicesBatchingDims := []
  startIndexMap := [0]
  indexVectorDim := 1
  sliceSizes := ![1, F]
  wf := wf

/-- The row a gather reads for edge `e`: the index read signed, clamped into `[0, N − 1]`. -/
def clampRow {N w : Nat} (hN : 0 < N) (v : BitVec w) : Fin N := ⟨min v.toInt.toNat (N - 1), by omega⟩

/-- THE ROW GATHER AT `(e, f)`: the table at the clamped row, same feature. -/
theorem rowGather_apply {N E F w : Nat} (hN : 0 < N)
    (wf : GatherDims.WF ⟨2, ![N, F]⟩ ⟨2, ![E, 1]⟩ ⟨2, ![E, F]⟩ [1] [0] [] [0] [] 1 ![1, F])
    (x : (⟨2, ![N, F]⟩ : Shape).Idx → α) (idx : IVec ⟨2, ![E, 1]⟩ w) (e : Fin E) (f : Fin F) :
    Host.gather (rowGatherDims N E F wf) x idx (ix2 e f) = x (ix2 (clampRow hN (idx (ix2 e (0 : Fin 1)))) f) := by
  unfold Host.gather
  congr 1
  funext a
  refine Fin.ext ?_
  have hsi : (rowGatherDims N E F wf).siIdx (ix2 e f) ⟨List.idxOf (0 : Fin 2) (rowGatherDims N E F wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  match a with
  | ⟨0, _⟩ =>
    show (rowGatherDims N E F wf).start (ix2 e f) idx (0 : Fin 2) + (rowGatherDims N E F wf).batchCoord (ix2 e f) (0 : Fin 2)
        + (rowGatherDims N E F wf).offCoord (ix2 e f) (0 : Fin 2) = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E F wf).startIndexMap from List.mem_singleton.mpr rfl)]
    rw [hsi]
    rfl
  | ⟨1, _⟩ =>
    show (rowGatherDims N E F wf).start (ix2 e f) idx (1 : Fin 2) + (rowGatherDims N E F wf).batchCoord (ix2 e f) (1 : Fin 2)
        + (rowGatherDims N E F wf).offCoord (ix2 e f) (1 : Fin 2) = _
    rw [GatherDims.batchCoord_eq_zero _ _ _ List.not_mem_nil]
    unfold GatherDims.start
    rw [dif_neg (show (1 : Fin 2) ∉ [(0 : Fin 2)] from by decide)]
    simp only [Nat.zero_add]
    unfold GatherDims.offCoord
    rw [dif_pos (show (1 : Fin 2) ∈ (rowGatherDims N E F wf).sKept from by
      rw [GatherDims.mem_sKept]; exact ⟨(show (1 : Fin 2) ∉ [(0 : Fin 2)] from by decide), List.not_mem_nil⟩)]
    rfl

/-- The dimension numbers of `x[idx]` for a flat array `[N]` and an index column `[E, 1]`. -/
abbrev vecGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE FLAT GATHER AT `e`: the array at the clamped index. -/
theorem vecGather_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGatherDims N E wf) x idx (ix1 e) = x (ix1 (clampRow hN (idx (ix2 e (0 : Fin 1))))) := by
  unfold Host.gather
  congr 1
  funext a
  obtain rfl : a = 0 := Subsingleton.elim _ _
  refine Fin.ext ?_
  show (vecGatherDims N E wf).start (ix1 e) idx 0 + (vecGatherDims N E wf).batchCoord (ix1 e) 0
      + (vecGatherDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N E wf).startIndexMap from List.mem_singleton.mpr rfl)]
  have hsi : (vecGatherDims N E wf).siIdx (ix1 e) ⟨List.idxOf (0 : Fin 1) (vecGatherDims N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

end Gather

/-! ## Accumulating scatter -/

section Scatter

/-- The dimension numbers of `segment_sum` into a table `[N, F]` from updates `[E, F]` by an index column `[E, 1]`:
    the row axis indexed, the feature axis a window kept whole. -/
abbrev rowScatterDims (N E F : Nat)
    (wf : ScatterDims.WF ⟨2, ![N, F]⟩ ⟨2, ![E, 1]⟩ ⟨2, ![E, F]⟩ [1] [0] [0] 1) :
    ScatterDims ⟨2, ![N, F]⟩ ⟨2, ![E, 1]⟩ ⟨2, ![E, F]⟩ where
  updateWindowDims := [1]
  insertedWindowDims := [0]
  scatterDimsToOperandDims := [0]
  indexVectorDim := 1
  wf := wf

variable {N E F w : Nat} (wf : ScatterDims.WF ⟨2, ![N, F]⟩ ⟨2, ![E, 1]⟩ ⟨2, ![E, F]⟩ [1] [0] [0] 1)
  (idx : IVec ⟨2, ![E, 1]⟩ w) (e : Fin E) (f : Fin F)

/-- On the row axis an update starts at its edge's index, read signed. -/
theorem rowScatter_start0 : (rowScatterDims N E F wf).start (ix2 e f) idx (0 : Fin 2) = (idx (ix2 e (0 : Fin 1))).toInt := by
  unfold ScatterDims.start
  rw [dif_pos (show (0 : Fin 2) ∈ (rowScatterDims N E F wf).scatterDimsToOperandDims from List.mem_singleton.mpr rfl)]
  have hsi : (rowScatterDims N E F wf).siIdx (ix2 e f) ⟨List.idxOf (0 : Fin 2) (rowScatterDims N E F wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the feature axis it starts at zero. -/
theorem rowScatter_start1 : (rowScatterDims N E F wf).start (ix2 e f) idx (1 : Fin 2) = 0 := by
  unfold ScatterDims.start
  rw [dif_neg (show (1 : Fin 2) ∉ [(0 : Fin 2)] from by decide)]

/-- The row axis is no window axis. -/
theorem rowScatter_window0 : (rowScatterDims N E F wf).window (ix2 e f) (0 : Fin 2) = 0 := by
  unfold ScatterDims.window
  rw [dif_neg (show (0 : Fin 2) ∉ (rowScatterDims N E F wf).sKept from
    (by decide : (0 : Fin 2) ∉ (List.finRange 2).filter (fun a => a ∉ [(0 : Fin 2)])))]

/-- The feature axis is the window: the update's own feature. -/
theorem rowScatter_window1 : (rowScatterDims N E F wf).window (ix2 e f) (1 : Fin 2) = f.val := by
  unfold ScatterDims.window
  rw [dif_pos (show (1 : Fin 2) ∈ (rowScatterDims N E F wf).sKept from
    (by decide : (1 : Fin 2) ∈ (List.finRange 2).filter (fun a => a ∉ [(0 : Fin 2)])))]
  rfl

/-- WHERE AN UPDATE LANDS: update `(e, f)` lands on `(r, g)` exactly when the edge's index, read signed, is `r`
    and `f = g`; an index outside `[0, N)` lands nowhere. -/
theorem rowScatter_lands (r : Fin N) (g : Fin F) :
    (rowScatterDims N E F wf).resultIdx? (ix2 e f) idx = some (ix2 r g)
      ↔ (idx (ix2 e (0 : Fin 1))).toInt = (r.val : ℤ) ∧ f = g := by
  have h0 := r.isLt
  have h1 := g.isLt
  have hf := f.isLt
  unfold ScatterDims.resultIdx?
  split
  · rename_i h
    rw [Option.some.injEq]
    constructor
    · intro hi
      have e0 : ((rowScatterDims N E F wf).start (ix2 e f) idx (0 : Fin 2)
          + ((rowScatterDims N E F wf).window (ix2 e f) (0 : Fin 2) : ℤ)).toNat = r.val :=
        congrArg (fun j : (⟨2, ![N, F]⟩ : Shape).Idx => (j 0).val) hi
      have e1 : ((rowScatterDims N E F wf).start (ix2 e f) idx (1 : Fin 2)
          + ((rowScatterDims N E F wf).window (ix2 e f) (1 : Fin 2) : ℤ)).toNat = g.val :=
        congrArg (fun j : (⟨2, ![N, F]⟩ : Shape).Idx => (j 1).val) hi
      have k0 := (h (0 : Fin 2)).1
      rw [rowScatter_start0, rowScatter_window0] at e0 k0
      rw [rowScatter_start1, rowScatter_window1] at e1
      exact ⟨by omega, Fin.ext (by omega)⟩
    · rintro ⟨g0, g1⟩
      funext a
      refine Fin.ext ?_
      match a with
      | ⟨0, _⟩ =>
        show ((rowScatterDims N E F wf).start (ix2 e f) idx (0 : Fin 2) + ((rowScatterDims N E F wf).window (ix2 e f) (0 : Fin 2) : ℤ)).toNat = r.val
        rw [rowScatter_start0, rowScatter_window0]; omega
      | ⟨1, _⟩ =>
        show ((rowScatterDims N E F wf).start (ix2 e f) idx (1 : Fin 2) + ((rowScatterDims N E F wf).window (ix2 e f) (1 : Fin 2) : ℤ)).toNat = g.val
        rw [rowScatter_start1, rowScatter_window1, g1]; omega
  · rename_i h
    constructor
    · intro hi; exact absurd hi (by simp)
    · rintro ⟨g0, g1⟩
      exfalso; apply h
      intro a
      match a with
      | ⟨0, _⟩ =>
        show 0 ≤ (rowScatterDims N E F wf).start (ix2 e f) idx (0 : Fin 2) + ((rowScatterDims N E F wf).window (ix2 e f) (0 : Fin 2) : ℤ)
          ∧ (rowScatterDims N E F wf).start (ix2 e f) idx (0 : Fin 2) + ((rowScatterDims N E F wf).window (ix2 e f) (0 : Fin 2) : ℤ) < (N : ℤ)
        rw [rowScatter_start0, rowScatter_window0]; omega
      | ⟨1, _⟩ =>
        show 0 ≤ (rowScatterDims N E F wf).start (ix2 e f) idx (1 : Fin 2) + ((rowScatterDims N E F wf).window (ix2 e f) (1 : Fin 2) : ℤ)
          ∧ (rowScatterDims N E F wf).start (ix2 e f) idx (1 : Fin 2) + ((rowScatterDims N E F wf).window (ix2 e f) (1 : Fin 2) : ℤ) < (F : ℤ)
        rw [rowScatter_start1, rowScatter_window1]; omega

/-- THE ACCUMULATING ROW SCATTER AT `(r, g)`: the operand's element plus the updates `upd[e, g]` of the edges whose
    index is `r`. -/
theorem rowScatterAdd_apply (x : (⟨2, ![N, F]⟩ : Shape).Idx → EReal) (upd : (⟨2, ![E, F]⟩ : Shape).Idx → EReal)
    (r : Fin N) (g : Fin F) :
    Ideal.hostScatterAdd (rowScatterDims N E F wf) x idx upd (ix2 r g)
      = x (ix2 r g) + ∑ e : Fin E, if (idx (ix2 e (0 : Fin 1))).toInt = (r.val : ℤ) then upd (ix2 e g) else 0 := by
  unfold Ideal.hostScatterAdd
  congr 1
  rw [Finset.sum_filter, sum_idx2]
  refine Finset.sum_congr rfl fun e _ => ?_
  simp only [rowScatter_lands]
  by_cases hP : (idx (ix2 e (0 : Fin 1))).toInt = (r.val : ℤ)
  · simp only [hP, true_and, if_true]
    rw [Finset.sum_ite_eq' Finset.univ g (fun f => upd (ix2 e f))]
    exact if_pos (Finset.mem_univ _)
  · simp only [hP, false_and, if_false]
    exact Finset.sum_const_zero

end Scatter

/-! ## Accumulating scatter into a flat array -/

section VecScatter

/-- A rank-1 index set is its one coordinate range … -/
def idxEquiv1 {n : Nat} : (⟨1, ![n]⟩ : Shape).Idx ≃ Fin n where
  toFun i := i 0
  invFun p := ix1 p
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The dimension numbers of `segment_sum` into a flat array `[N]` from updates `[E]` by an index column `[E, 1]`. -/
abbrev vecScatterDims (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

variable {N E w : Nat} (wf : ScatterDims.WF ⟨1, ![N]⟩ ⟨2, ![E, 1]⟩ ⟨1, ![E]⟩ [] [0] [0] 1)
  (idx : IVec ⟨2, ![E, 1]⟩ w) (e : Fin E)

/-- An update starts at its edge's index, read signed. -/
theorem vecScatter_start0 : (vecScatterDims N E wf).start (ix1 e) idx (0 : Fin 1) = (idx (ix2 e (0 : Fin 1))).toInt := by
  unfold ScatterDims.start
  rw [dif_pos (show (0 : Fin 1) ∈ (vecScatterDims N E wf).scatterDimsToOperandDims from List.mem_singleton.mpr rfl)]
  have hsi : (vecScatterDims N E wf).siIdx (ix1 e) ⟨List.idxOf (0 : Fin 1) (vecScatterDims N E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- There is no window axis. -/
theorem vecScatter_window0 : (vecScatterDims N E wf).window (ix1 e) (0 : Fin 1) = 0 := by
  unfold ScatterDims.window
  rw [dif_neg (show (0 : Fin 1) ∉ (vecScatterDims N E wf).sKept from
    (by decide : (0 : Fin 1) ∉ (List.finRange 1).filter (fun a => a ∉ [(0 : Fin 1)])))]

/-- WHERE AN UPDATE LANDS: update `e` lands on `r` exactly when the edge's index, read signed, is `r`. -/
theorem vecScatter_lands (r : Fin N) :
    (vecScatterDims N E wf).resultIdx? (ix1 e) idx = some (ix1 r) ↔ (idx (ix2 e (0 : Fin 1))).toInt = (r.val : ℤ) := by
  have h0 := r.isLt
  unfold ScatterDims.resultIdx?
  split
  · rename_i h
    rw [Option.some.injEq]
    constructor
    · intro hi
      have e0 : ((vecScatterDims N E wf).start (ix1 e) idx (0 : Fin 1)
          + ((vecScatterDims N E wf).window (ix1 e) (0 : Fin 1) : ℤ)).toNat = r.val :=
        congrArg (fun j : (⟨1, ![N]⟩ : Shape).Idx => (j 0).val) hi
      have k0 := (h (0 : Fin 1)).1
      rw [vecScatter_start0, vecScatter_window0] at e0 k0
      omega
    · intro g0
      funext a
      refine Fin.ext ?_
      match a with
      | ⟨0, _⟩ =>
        show ((vecScatterDims N E wf).start (ix1 e) idx (0 : Fin 1) + ((vecScatterDims N E wf).window (ix1 e) (0 : Fin 1) : ℤ)).toNat = r.val
        rw [vecScatter_start0, vecScatter_window0]; omega
  · rename_i h
    constructor
    · intro hi; exact absurd hi (by simp)
    · intro g0
      exfalso; apply h
      intro a
      match a with
      | ⟨0, _⟩ =>
        show 0 ≤ (vecScatterDims N E wf).start (ix1 e) idx (0 : Fin 1) + ((vecScatterDims N E wf).window (ix1 e) (0 : Fin 1) : ℤ)
          ∧ (vecScatterDims N E wf).start (ix1 e) idx (0 : Fin 1) + ((vecScatterDims N E wf).window (ix1 e) (0 : Fin 1) : ℤ) < (N : ℤ)
        rw [vecScatter_start0, vecScatter_window0]; omega

/-- THE ACCUMULATING FLAT SCATTER AT `r`: the operand's element plus the updates of the edges whose index is `r`. -/
theorem vecScatterAdd_apply (x : (⟨1, ![N]⟩ : Shape).Idx → EReal) (upd : (⟨1, ![E]⟩ : Shape).Idx → EReal) (r : Fin N) :
    Ideal.hostScatterAdd (vecScatterDims N E wf) x idx upd (ix1 r)
      = x (ix1 r) + ∑ e : Fin E, if (idx (ix2 e (0 : Fin 1))).toInt = (r.val : ℤ) then upd (ix1 e) else 0 := by
  unfold Ideal.hostScatterAdd
  congr 1
  rw [Finset.sum_filter, sum_idx1]
  refine Finset.sum_congr rfl fun e _ => ?_
  simp only [vecScatter_lands]

end VecScatter

/-! ## The same four reads, stated for the host operations at a program's own record of dimension numbers

A program names its dimension numbers by a definition; `hd` identifies that record with the one above (by `rfl`), and the
statement is then about the host operation as the program prints it, so that it rewrites without unfolding anything. -/

section Host

theorem rowGather_host {α : Type} {N E F w : Nat} (hN : 0 < N)
    (d : GatherDims ⟨2, ![N, F]⟩ ⟨2, ![E, 1]⟩ ⟨2, ![E, F]⟩)
    (wf : GatherDims.WF ⟨2, ![N, F]⟩ ⟨2, ![E, 1]⟩ ⟨2, ![E, F]⟩ [1] [0] [] [0] [] 1 ![1, F]) (hd : d = rowGatherDims N E F wf)
    (x : (⟨2, ![N, F]⟩ : Shape).Idx → α) (idx : IVec ⟨2, ![E, 1]⟩ w) (e : Fin E) (f : Fin F) :
    Host.gather d x idx (ix2 e f) = x (ix2 (clampRow hN (idx (ix2 e (0 : Fin 1)))) f) := by
  subst hd; exact rowGather_apply hN wf x idx e f

theorem vecGather_host {α : Type} {N E w : Nat} (hN : 0 < N)
    (d : GatherDims ⟨1, ![N]⟩ ⟨2, ![E, 1]⟩ ⟨1, ![E]⟩)
    (wf : GatherDims.WF ⟨1, ![N]⟩ ⟨2, ![E, 1]⟩ ⟨1, ![E]⟩ [] [0] [] [0] [] 1 ![1]) (hd : d = vecGatherDims N E wf)
    (x : (⟨1, ![N]⟩ : Shape).Idx → α) (idx : IVec ⟨2, ![E, 1]⟩ w) (e : Fin E) :
    Host.gather d x idx (ix1 e) = x (ix1 (clampRow hN (idx (ix2 e (0 : Fin 1))))) := by
  subst hd; exact vecGather_apply hN wf x idx e

theorem rowScatterAdd_host {N E F w : Nat} {φ : FTy}
    (d : ScatterDims ⟨2, ![N, F]⟩ ⟨2, ![E, 1]⟩ ⟨2, ![E, F]⟩)
    (wf : ScatterDims.WF ⟨2, ![N, F]⟩ ⟨2, ![E, 1]⟩ ⟨2, ![E, F]⟩ [1] [0] [0] 1) (hd : d = rowScatterDims N E F wf)
    (x : FVec Ideal ⟨2, ![N, F]⟩ φ) (idx : IVec ⟨2, ![E, 1]⟩ w) (upd : FVec Ideal ⟨2, ![E, F]⟩ φ) (r : Fin N) (g : Fin F) :
    Host.scatterAdd d x idx upd (ix2 r g)
      = x (ix2 r g) + ∑ e : Fin E, if (idx (ix2 e (0 : Fin 1))).toInt = (r.val : ℤ) then upd (ix2 e g) else 0 := by
  subst hd
  unfold Host.scatterAdd
  rw [Ideal.hostScatterAdd_def]
  exact rowScatterAdd_apply wf idx x upd r g

theorem vecScatterAdd_host {N E w : Nat} {φ : FTy}
    (d : ScatterDims ⟨1, ![N]⟩ ⟨2, ![E, 1]⟩ ⟨1, ![E]⟩)
    (wf : ScatterDims.WF ⟨1, ![N]⟩ ⟨2, ![E, 1]⟩ ⟨1, ![E]⟩ [] [0] [0] 1) (hd : d = vecScatterDims N E wf)
    (x : FVec Ideal ⟨1, ![N]⟩ φ) (idx : IVec ⟨2, ![E, 1]⟩ w) (upd : FVec Ideal ⟨1, ![E]⟩ φ) (r : Fin N) :
    Host.scatterAdd d x idx upd (ix1 r)
      = x (ix1 r) + ∑ e : Fin E, if (idx (ix2 e (0 : Fin 1))).toInt = (r.val : ℤ) then upd (ix1 e) else 0 := by
  subst hd
  unfold Host.scatterAdd
  rw [Ideal.hostScatterAdd_def]
  exact vecScatterAdd_apply wf idx x upd r

end Host

end Cert.Gcn

end
-- ==== Proof.LibLayoutReads.lean ====
/-
  Small reads at an index, for the layout operations around a gather and a scatter, and the two facts about
  32-bit index words that the aggregation needs.

  * A flat array broadcast to a column, a scalar broadcast to any shape, a column repeated along the features, a
    bias `[F]` repeated for every node (through `[1, F]`), and the reshapes `[F] → [1, F]`, `[N] → [N, 1]`:
    each read at an index is the operand at the evident index.
  * `x[idx]` wraps a negative index by the table's length once before the gather clamps it. An index word whose
    signed value is a row `c` of the table is read back as `c`: it is not negative, so it is not wrapped, and it is
    inside the table, so the clamp leaves it. The word of a small natural number `i` has signed value `i`.
-/
import Idealize.ShloMosaic.Lib.Pipeline.Value
import Idealize.ShloMosaic.Lib.ValueIdx
import proofs.«175754_g9603546874456_fold_wed_m_582_2_alg».proof.Proof.LibRowIndexing

noncomputable section

namespace Cert.Gcn

open Idealize.ShloMosaic Idealize.ShloMosaic.ValueIdx

section Layout
variable {α : Type}

/-- A scalar broadcast holds the scalar everywhere. -/
theorem bcastScalar_apply {t : Shape} (h : (⟨0, ![]⟩ : Shape).BroadcastsInDim t ![]) (x : (⟨0, ![]⟩ : Shape).Idx → α)
    (j : t.Idx) : broadcastInDim t ![] h x j = x ix0 :=
  broadcastInDim_apply _ h x j ix0 (fun a => a.elim0)

/-- A flat array as a column: entry `e` of the column is entry `e` of the array. -/
theorem bcastCol_apply {E : ℕ} (hE : E ≠ 1) (h : (⟨1, ![E]⟩ : Shape).BroadcastsInDim ⟨2, ![E, 1]⟩ ![0])
    (x : (⟨1, ![E]⟩ : Shape).Idx → α) (e : Fin E) :
    broadcastInDim ⟨2, ![E, 1]⟩ ![0] h x (ix2 e (0 : Fin 1)) = x (ix1 e) :=
  broadcastInDim_apply _ h x _ (ix1 e) (fun a => match a with
    | ⟨0, _⟩ => by show e.val = if E = 1 then 0 else e.val; rw [if_neg hE])

/-- A column repeated along the features: entry `(e, g)` is the column's entry `e`. -/
theorem bcastAlong_apply {E F : ℕ} (hE : E ≠ 1) (h : (⟨2, ![E, 1]⟩ : Shape).BroadcastsInDim ⟨2, ![E, F]⟩ ![0, 1])
    (x : (⟨2, ![E, 1]⟩ : Shape).Idx → α) (e : Fin E) (g : Fin F) :
    broadcastInDim ⟨2, ![E, F]⟩ ![0, 1] h x (ix2 e g) = x (ix2 e (0 : Fin 1)) :=
  broadcastInDim_apply _ h x _ (ix2 e (0 : Fin 1)) (fun a => match a with
    | ⟨0, _⟩ => by show e.val = if E = 1 then 0 else e.val; rw [if_neg hE]
    | ⟨1, _⟩ => by show 0 = if (1 : ℕ) = 1 then 0 else g.val; rw [if_pos rfl])

/-- A bias `[F]` as a row `[1, F]` repeated for every node: entry `(c, g)` is `b g`. -/
theorem bcastBias_apply {N F : ℕ} (hF : F ≠ 1) (h1 : (⟨1, ![F]⟩ : Shape).BroadcastsInDim ⟨2, ![1, F]⟩ ![1])
    (h2 : (⟨2, ![1, F]⟩ : Shape).BroadcastsInDim ⟨2, ![N, F]⟩ ![0, 1]) (b : (⟨1, ![F]⟩ : Shape).Idx → α) (c : Fin N) (g : Fin F) :
    broadcastInDim ⟨2, ![N, F]⟩ ![0, 1] h2 (broadcastInDim ⟨2, ![1, F]⟩ ![1] h1 b) (ix2 c g) = b (ix1 g) := by
  rw [broadcastInDim_apply _ h2 _ _ (ix2 (0 : Fin 1) g) (fun a => match a with
    | ⟨0, _⟩ => by show 0 = if (1 : ℕ) = 1 then 0 else c.val; rw [if_pos rfl]
    | ⟨1, _⟩ => by show g.val = if F = 1 then 0 else g.val; rw [if_neg hF])]
  exact broadcastInDim_apply _ h1 b _ (ix1 g) (fun a => match a with
    | ⟨0, _⟩ => by show g.val = if F = 1 then 0 else g.val; rw [if_neg hF])

/-- The reshape `[F] → [1, F]`. -/
theorem reshapeRow_apply {F : ℕ} (h : (⟨1, ![F]⟩ : Shape).ShapeCasts ⟨2, ![1, F]⟩) (b : (⟨1, ![F]⟩ : Shape).Idx → α) (g : Fin F) :
    shapeCast ⟨2, ![1, F]⟩ b h (ix2 (0 : Fin 1) g) = b (ix1 g) :=
  shapeCast_apply b h _ (ix1 g) (by
    rw [Shape.rowMajor_val_two, Shape.rowMajor_val_one]; show g.val = 0 * F + g.val; omega)

/-- The reshape `[N] → [N, 1]`. -/
theorem reshapeCol_apply {N : ℕ} (h : (⟨1, ![N]⟩ : Shape).ShapeCasts ⟨2, ![N, 1]⟩) (v : (⟨1, ![N]⟩ : Shape).Idx → α) (r : Fin N) :
    shapeCast ⟨2, ![N, 1]⟩ v h (ix2 r (0 : Fin 1)) = v (ix1 r) :=
  shapeCast_apply v h _ (ix1 r) (by
    rw [Shape.rowMajor_val_two, Shape.rowMajor_val_one]; show r.val = r.val * 1 + 0; omega)

end Layout

/-! ## Index words -/

/-- How `x[idx]` prepares an index word for a table of length `n`: a negative one is wrapped by `n` once. -/
def wrapIdx (n v : BitVec 32) : BitVec 32 := Scalar.select (IntOp.cmpi .slt v 0#32) (IntOp.addi v n) v

/-- A word that is not negative is not wrapped. -/
theorem wrapIdx_of_nonneg (n v : BitVec 32) (h : 0 ≤ v.toInt) : wrapIdx n v = v := by
  unfold wrapIdx IntOp.cmpi
  have hs : v.slt 0#32 = false := by
    rw [BitVec.slt]; simp only [BitVec.toInt_zero]; exact decide_eq_false (by omega)
  simp only [hs, BitVec.ofBool_false]
  exact if_neg (by decide)

/-- A word whose signed value is a row `c` of the table is read back as `c`. -/
theorem clampRow_wrapIdx_of_toInt {N : ℕ} (hN : 0 < N) (n v : BitVec 32) (c : Fin N) (h : v.toInt = (c.val : ℤ)) :
    clampRow hN (wrapIdx n v) = c := by
  rw [wrapIdx_of_nonneg n v (by omega)]
  refine Fin.ext ?_
  show min v.toInt.toNat (N - 1) = c.val
  have := c.isLt
  omega

/-- The word of a natural number below `2 ^ 31` has that number as its signed value. -/
theorem toInt_ofNat_small (i : ℕ) (h : i < 2147483648) : (BitVec.ofNat 32 i).toInt = (i : ℤ) := by
  rw [BitVec.toInt_eq_toNat_cond, BitVec.toNat_ofNat]
  have hm : i % 2 ^ 32 = i := Nat.mod_eq_of_lt (by omega)
  rw [hm]
  split <;> omega

/-- So the word of a row `i` is read back as `i`. -/
theorem clampRow_wrapIdx_ofNat {N : ℕ} (hN : 0 < N) (hN' : N ≤ 2147483648) (n : BitVec 32) (i : Fin N) :
    clampRow hN (wrapIdx n (BitVec.ofNat 32 i.val)) = i :=
  clampRow_wrapIdx_of_toInt hN n _ i (toInt_ofNat_small i.val (by have := i.isLt; omega))

end Cert.Gcn

end
-- ==== Proof.RefWords.lean ====
/-
  The reference's edge list read at an edge.  The 1024² + 1024 edges are the ordered pairs (i, j) at number i·1024 + j
  and the self-loops at number 1024² + i.  The source word of pair (i, j) is i (the node list repeated entry by entry),
  its destination word is j (the node list tiled), its weight is 1 when the adjacency entry (i, j) is nonzero and 0
  otherwise; a self-loop's two words are both i and its weight is the word of 1.  No word is negative, so the wrap by
  1024 that array indexing applies to a negative index leaves each as it is; as a scatter destination a word is its
  node, and as a gather row it is its node again.
-/
import proofs.«175754_g9603546874456_fold_wed_m_582_2_alg».proof.Proof.RefTerm
import proofs.«175754_g9603546874456_fold_wed_m_582_2_alg».proof.Proof.LibLayoutReads
import proofs.«175754_g9603546874456_fold_wed_m_582_2_alg».proof.Proof.LibLayerLaw
import Idealize.ShloMosaic.Lib.Pipeline.Value
import Idealize.ShloMosaic.Lib.ValueIdx

noncomputable section

namespace Cert.ReferenceIdeal.RefWords

open Cert.ReferenceIdeal Cert.ReferenceIdeal.Gen Cert.ReferenceIdeal.RefTerm
open Idealize.ShloMosaic Idealize.ShloMosaic.ValueIdx Cert.Gcn Cert.LayerLaw

variable {F : FTy → Type} [FloatOps F]

/-- The edge count: every ordered pair and every self-loop. -/
theorem hE : (1049600 : ℕ) = 1024 * 1024 + 1024 := by norm_num

/-- The edge of the ordered pair (i, j). -/
abbrev pe (i j : Fin 1024) : Fin 1049600 := pairE hE i j
/-- The self-loop of node i. -/
abbrev le (i : Fin 1024) : Fin 1049600 := loopE hE i

theorem pe_val (i j : Fin 1024) : (pe i j).val = i.val * 1024 + j.val := rfl
theorem le_val (i : Fin 1024) : (le i).val = 1024 * 1024 + i.val := rfl

/-- Node i's word. -/
theorem nodes_apply (i : Fin 1024) : nodes (ix1 i) = BitVec.ofNat 32 i.val := rfl

/-- The pair's number inside the first piece of the edge list. -/
def pk (i j : Fin 1024) : Fin 1048576 := ⟨i.val * 1024 + j.val, by have := i.isLt; have := j.isLt; omega⟩

/-- A two-piece list over the edges reads its first piece at a pair … -/
theorem cat_pair {α : Type} (a : S1048576.Idx → α) (b : S1024.Idx → α) (i j : Fin 1024) :
    concatenate S1049600 0 [⟨S1048576, a⟩, ⟨S1024, b⟩] concatenates_S1048576_S1024_S1049600_d0 (ix1 (pe i j))
      = a (ix1 (pk i j)) :=
  concatenate_pair_apply_left (0 : Fin 1) a b concatenates_S1048576_S1024_S1049600_d0 (ix1 (pe i j)) rfl (ix1 (pk i j))
    (fun b => match b with | ⟨0, _⟩ => rfl)

/-- … and its second piece at a self-loop. -/
theorem cat_loop {α : Type} (a : S1048576.Idx → α) (b : S1024.Idx → α) (i : Fin 1024) :
    concatenate S1049600 0 [⟨S1048576, a⟩, ⟨S1024, b⟩] concatenates_S1048576_S1024_S1049600_d0 (ix1 (le i))
      = b (ix1 i) :=
  concatenate_pair_apply_right (0 : Fin 1) a b concatenates_S1048576_S1024_S1049600_d0 (ix1 (le i)) rfl rfl (ix1 i)
    (fun b hb => match b with | ⟨0, _⟩ => absurd rfl hb)
    (by show i.val + 1048576 = 1024 * 1024 + i.val; omega)

/-- A [1024, 1024] array flattened reads, at a pair's number, the entry (i, j). -/
theorem flat_pair {α : Type} (x : S1024x1024.Idx → α) (i j : Fin 1024) :
    shapeCast S1048576 x shapeCasts_S1024x1024_S1048576 (ix1 (pk i j)) = x (ix2 i j) :=
  shapeCast_apply x shapeCasts_S1024x1024_S1048576 _ (ix2 i j) (by
    rw [Shape.rowMajor_val_two, Shape.rowMajor_val_one]; rfl)

theorem srcW_pair (i j : Fin 1024) : srcW (ix1 (pe i j)) = BitVec.ofNat 32 i.val := by
  unfold srcW
  rw [cat_pair, flat_pair,
    broadcastInDim_apply _ bcast_S1024_S1024x1024_0 nodes _ (ix1 i) (fun a => match a with
      | ⟨0, _⟩ => by show i.val = if (1024 : ℕ) = 1 then 0 else i.val; rw [if_neg (by decide)])]
  rfl

theorem srcW_loop (i : Fin 1024) : srcW (ix1 (le i)) = BitVec.ofNat 32 i.val := by
  unfold srcW
  rw [cat_loop]
  rfl

theorem dstW_pair (i j : Fin 1024) : dstW (ix1 (pe i j)) = BitVec.ofNat 32 j.val := by
  unfold dstW
  rw [cat_pair, flat_pair,
    broadcastInDim_apply _ bcast_S1x1024_S1024x1024_0_1 _ _ (ix2 (0 : Fin 1) j) (fun a => match a with
      | ⟨0, _⟩ => by show 0 = if (1 : ℕ) = 1 then 0 else i.val; rw [if_pos rfl]
      | ⟨1, _⟩ => by show j.val = if (1024 : ℕ) = 1 then 0 else j.val; rw [if_neg (by decide)]),
    reshapeRow_apply]
  rfl

theorem dstW_loop (i : Fin 1024) : dstW (ix1 (le i)) = BitVec.ofNat 32 i.val := by
  unfold dstW
  rw [cat_loop]
  rfl

/-- The wrap column at an edge is the wrap of the edge's word. -/
theorem wrapCol_apply (w : IVec S1049600 32) (e : Fin 1049600) :
    wrapCol w (ix2 e (0 : Fin 1)) = wrapIdx 1024#32 (w (ix1 e)) := by
  unfold wrapCol
  rw [bcastCol_apply (by decide)]
  show Scalar.select (IntOp.cmpi .slt (w (ix1 e)) (broadcastInDim S1049600 ![] bcast_S_S1049600 (constantI S_ 32 0#32) (ix1 e)))
      (IntOp.addi (w (ix1 e)) (broadcastInDim S1049600 ![] bcast_S_S1049600 (constantI S_ 32 1024#32) (ix1 e))) (w (ix1 e)) = _
  rw [bcastScalar_apply, bcastScalar_apply]
  rfl

/-- A node's word, wrapped, read signed: the node. -/
theorem wrap_toInt (i : Fin 1024) : (wrapIdx 1024#32 (BitVec.ofNat 32 i.val)).toInt = (i.val : ℤ) := by
  have h := toInt_ofNat_small i.val (by have := i.isLt; omega)
  rw [wrapIdx_of_nonneg _ _ (by omega), h]

/-- As a scatter destination: the word of node k lands on node r exactly when k = r. -/
theorem wrap_lands (k r : Fin 1024) :
    ((wrapIdx 1024#32 (BitVec.ofNat 32 k.val)).toInt = (r.val : ℤ)) ↔ k = r := by
  rw [wrap_toInt]
  constructor
  · intro h; exact Fin.ext (by omega)
  · intro h; rw [h]

/-- As a gather row: the word of node k reads row k. -/
theorem wrap_row (k : Fin 1024) :
    clampRow (N := 1024) (by decide) (wrapIdx 1024#32 (BitVec.ofNat 32 k.val)) = k :=
  clampRow_wrapIdx_ofNat (by decide) (by decide) _ k

/-- A pair's weight: the adjacency entry's test read as a number; a self-loop's: the word of 1. -/
theorem edgeW_pair (adj : IVec S1024x1024 32) (i j : Fin 1024) :
    edgeW (F := F) adj (ix1 (pe i j)) = FloatOps.uitofp .f32 (IntOp.cmpi .ne (adj (ix2 i j)) 0#32) := by
  unfold edgeW
  rw [cat_pair]
  show FloatOps.uitofp .f32 (IntOp.cmpi .ne (shapeCast S1048576 adj shapeCasts_S1024x1024_S1048576 (ix1 (pk i j)))
      (broadcastInDim S1048576 ![] bcast_S_S1048576 (constantI S_ 32 0#32) (ix1 (pk i j)))) = _
  rw [flat_pair, bcastScalar_apply]
  rfl

theorem edgeW_loop (adj : IVec S1024x1024 32) (i : Fin 1024) :
    edgeW (F := F) adj (ix1 (le i)) = FloatOps.ofBits .f32 0x3F800000#32 := by
  unfold edgeW
  rw [cat_loop, bcastScalar_apply]
  rfl

end Cert.ReferenceIdeal.RefWords

end
-- ==== Proof.LibHostReads.lean ====
/-
  Host-side array operations read at an index, on the extended reals.

  The reads that plain array code needs again and again: a plain matrix product [m,k]·[k,n] at (a, b) is the finite sum
  Σ_c L(a,c)·R(c,b), whatever name the product's dimension record was printed under, as long as it is the plain one; a
  scalar broadcast to any shape reads the scalar; a bias vector [n] broadcast to one row [1,n] and then down m rows reads,
  at (r, c), the bias at c; a vector [m] made a column [m,1] reads, at (r, ·), the vector at r; and a column [m,1]
  repeated along n columns reads, at (r, d), the column at r. Generic in the extents (an extent that must not be the unit
  extent says so) and, for the layout reads, in the element type; the indices are written by coordinates (ix1, ix2), so
  each lemma applies to a printed operation by unification.
-/
import Idealize.ShloMosaic.Lib.StackMember
import Idealize.ShloMosaic.Lib.Pipeline.Value
import Idealize.ShloMosaic.Lib.ValueIdx

noncomputable section

open scoped BigOperators

namespace Cert.LibHostReads

open Idealize.ShloMosaic Idealize.ShloMosaic.ValueIdx

variable {α : Type}

/-- A plain m×k by k×n product read at (a, b): Σ_c L(a,c)·R(c,b). -/
theorem dot_apply {m k n : Nat} (D : DotDims ⟨2, ![m, k]⟩ ⟨2, ![k, n]⟩ ⟨2, ![m, n]⟩) (hD : D = DotDims.plain m k n)
    (L : FVec Ideal ⟨2, ![m, k]⟩ .f32) (R : FVec Ideal ⟨2, ![k, n]⟩ .f32) (a : Fin m) (b : Fin n) :
    Host.dotGeneral D none L R (ix2 a b) = ∑ c : Fin k, L (ix2 a c) * R (ix2 c b) := by
  subst hD
  exact StackMember.dotGeneral_plain_apply none L R a b

/-- A scalar broadcast to any shape reads the scalar everywhere. -/
theorem splat_apply {t : Shape} (h : (⟨0, ![]⟩ : Shape).BroadcastsInDim t ![]) (y : (⟨0, ![]⟩ : Shape).Idx → α) (j : t.Idx) :
    broadcastInDim t ![] h y j = y ix0 :=
  broadcastInDim_apply _ h y j ix0 (fun a => a.elim0)

/-- A vector of length n broadcast to one row and then to m rows reads, at (r, c), the vector at c. -/
theorem rowBias_apply {m n : Nat} (hn : n ≠ 1)
    (h1 : (⟨1, ![n]⟩ : Shape).BroadcastsInDim ⟨2, ![1, n]⟩ ![1])
    (h2 : (⟨2, ![1, n]⟩ : Shape).BroadcastsInDim ⟨2, ![m, n]⟩ ![0, 1])
    (b : (⟨1, ![n]⟩ : Shape).Idx → α) (r : Fin m) (c : Fin n) :
    broadcastInDim ⟨2, ![m, n]⟩ ![0, 1] h2 (broadcastInDim ⟨2, ![1, n]⟩ ![1] h1 b) (ix2 r c) = b (ix1 c) := by
  rw [broadcastInDim_apply _ h2 _ (ix2 r c) (ix2 (0 : Fin 1) c) (fun a => match a with
      | ⟨0, _⟩ => by show 0 = if (1 : Nat) = 1 then 0 else r.val; rw [if_pos rfl]
      | ⟨1, _⟩ => by show c.val = if n = 1 then 0 else c.val; rw [if_neg hn]),
    broadcastInDim_apply _ h1 b (ix2 (0 : Fin 1) c) (ix1 c) (fun a => match a with
      | ⟨0, _⟩ => by show c.val = if n = 1 then 0 else c.val; rw [if_neg hn])]

/-- A vector of length m as a column reads, at (r, z), the vector at r. -/
theorem col_apply {m : Nat} (hm : m ≠ 1) (h1 : (⟨1, ![m]⟩ : Shape).BroadcastsInDim ⟨2, ![m, 1]⟩ ![0])
    (v : (⟨1, ![m]⟩ : Shape).Idx → α) (r : Fin m) (z : Fin 1) :
    broadcastInDim ⟨2, ![m, 1]⟩ ![0] h1 v (ix2 r z) = v (ix1 r) :=
  broadcastInDim_apply _ h1 v (ix2 r z) (ix1 r) (fun a => match a with
    | ⟨0, _⟩ => by show r.val = if m = 1 then 0 else r.val; rw [if_neg hm])

/-- A column broadcast along its rows reads, at (r, d), the column at r. -/
theorem colBcast_apply {m n : Nat} (hm : m ≠ 1) (h2 : (⟨2, ![m, 1]⟩ : Shape).BroadcastsInDim ⟨2, ![m, n]⟩ ![0, 1])
    (Y : (⟨2, ![m, 1]⟩ : Shape).Idx → α) (r : Fin m) (d : Fin n) :
    broadcastInDim ⟨2, ![m, n]⟩ ![0, 1] h2 Y (ix2 r d) = Y (ix2 r (0 : Fin 1)) :=
  broadcastInDim_apply _ h2 Y (ix2 r d) (ix2 r (0 : Fin 1)) (fun a => match a with
    | ⟨0, _⟩ => by show r.val = if m = 1 then 0 else r.val; rw [if_neg hm]
    | ⟨1, _⟩ => by show 0 = if (1 : Nat) = 1 then 0 else d.val; rw [if_pos rfl])

end Cert.LibHostReads

end
-- ==== Proof.RefReads.lean ====
/-
  The reference's stages read at an index.  Write a(i, j) for the indicator of a nonzero adjacency entry and
  c j = Σ_i a(i, j).  Adding the edge weights up at their destinations gives deg j = 0 + (c j + 1): of the ordered
  pairs only the column j enters node j, and of the self-loops only its own.  The guard deg > 0 then holds, so
  dinv j = 1 / sqrt (c j + 1).  Pair (i, j) has normalised weight dinv i · dinv j · a(i, j) and message that times
  row i of h = x₂ · W; self-loop i has dinv i · dinv i · 1 times row i.  Adding the messages up at their
  destinations gives, at (p, q),
      agg(p, q) = 0 + (Σ_i (dinv i · dinv p · a(i, p)) · h(i, q) + (dinv p · dinv p · 1) · h(p, q)) ,
  and the layer before its activation is agg(p, q) + b q.
-/
import proofs.«175754_g9603546874456_fold_wed_m_582_2_alg».proof.Proof.RefWords
import proofs.«175754_g9603546874456_fold_wed_m_582_2_alg».proof.Proof.LibDegreeLaws
import proofs.«175754_g9603546874456_fold_wed_m_582_2_alg».proof.Proof.LibHostReads

noncomputable section

open scoped BigOperators

namespace Cert.ReferenceIdeal.RefReads

open Cert.ReferenceIdeal Cert.ReferenceIdeal.Gen Cert.ReferenceIdeal.RefTerm Cert.ReferenceIdeal.RefWords
open Idealize.ShloMosaic Idealize.ShloMosaic.ValueIdx Cert.Gcn Cert.LayerLaw Cert.ScalarLaws

/-- The word of 0.0 at the one index of a scalar. -/
theorem zero_c : constant (F := Ideal) S_ .f32 0x00000000#32 ix0 = (0 : EReal) := Ideal.ofBits_zero_f32
/-- The word of 1.0 at the one index of a scalar. -/
theorem one_c : constant (F := Ideal) S_ .f32 0x3F800000#32 ix0 = ((1 : ℝ) : EReal) := ofBits_one
/-- The word of 1.0 as a self-loop's weight. -/
theorem one_w : FloatOps.ofBits (F := Ideal) .f32 0x3F800000#32 = ((1 : ℝ) : EReal) := ofBits_one
/-- A pair's weight is the indicator. -/
theorem test_w (v : BitVec 32) :
    FloatOps.uitofp (F := Ideal) .f32 (IntOp.cmpi .ne v 0#32) = ((ind v : ℝ) : EReal) := unsigned_test v

/-- The column sum of the indicators of column j. -/
def colSum (adj : IVec S1024x1024 32) (j : Fin 1024) : ℝ := ∑ i : Fin 1024, ind (adj (ix2 i j))

theorem colSum_nonneg (adj : IVec S1024x1024 32) (j : Fin 1024) : 0 ≤ colSum adj j :=
  Finset.sum_nonneg fun i _ => ind_nonneg _

/-- The features h = x₂ · W at (i, q). -/
theorem hmat_apply (x : FVec Ideal S4x256x128 .f32) (W : FVec Ideal S128x128 .f32) (i : Fin 1024) (q : Fin 128) :
    hmat x W (ix2 i q)
      = ∑ k : Fin 128, shapeCast S1024x128 x shapeCasts_S4x256x128_S1024x128 (ix2 i k) * W (ix2 k q) :=
  Cert.LibHostReads.dot_apply dot_S1024x128_S128x128_S1024x128_1_0_0_1_n_n rfl _ W i q

theorem deg_apply (adj : IVec S1024x1024 32) (r : Fin 1024) :
    deg (F := Ideal) adj (ix1 r) = (0 : EReal) + (((colSum adj r : ℝ) : EReal) + ((1 : ℝ) : EReal)) := by
  unfold deg
  rw [vecScatterAdd_host scatter_S1024_S1049600x1_S1049600_n_0_0_1 scatter_S1024_S1049600x1_S1049600_n_0_0_1_wf rfl,
    bcastScalar_apply, zero_c, sum_edges hE]
  simp only [wrapCol_apply, dstW_pair, dstW_loop, wrap_lands, edgeW_pair, edgeW_loop, test_w, one_w]
  rw [sum_entering r (fun i j => ((ind (adj (ix2 i j)) : ℝ) : EReal)) (fun _ => ((1 : ℝ) : EReal)), ← coe_sum]
  rfl

/-- The guarded quotient read at an entry, for ANY degree array d. -/
theorem guarded_at (d : FVec Ideal S1024 .f32) (r : Fin 1024) :
    select (cmpf .ogt d (broadcastInDim S1024 ![] bcast_S_S1024 (constant (F := Ideal) S_ .f32 0x00000000#32)))
        (Host.divf (broadcastInDim S1024 ![] bcast_S_S1024 (constant (F := Ideal) S_ .f32 0x3F800000#32)) (Host.sqrt d))
        (broadcastInDim S1024 ![] bcast_S_S1024 (id (constant (F := Ideal) S_ .f32 0x00000000#32))) (ix1 r)
      = Scalar.select (Ideal.cmp .ogt (d (ix1 r)) 0) (Ideal.div ((1 : ℝ) : EReal) (Ideal.sqrt (d (ix1 r)))) (0 : EReal) := by
  rw [select_apply, cmpf_apply, bcastScalar_apply, bcastScalar_apply, zero_c]
  show Scalar.select (Ideal.cmp .ogt (d (ix1 r)) 0)
      (Ideal.div (broadcastInDim S1024 ![] bcast_S_S1024 (constant (F := Ideal) S_ .f32 0x3F800000#32) (ix1 r))
        (Ideal.sqrt (d (ix1 r)))) (constant (F := Ideal) S_ .f32 0x00000000#32 ix0) = _
  rw [bcastScalar_apply, one_c, zero_c]

theorem dinv_apply (adj : IVec S1024x1024 32) (r : Fin 1024) :
    dinv (F := Ideal) adj (ix1 r) = ((dinvR (colSum adj r) : ℝ) : EReal) := by
  have h := guarded_deg (colSum adj r) (colSum_nonneg adj r)
  unfold dinv
  rw [guarded_at, deg_apply]
  exact h

/-- An abbreviation: node j's scaling as an extended real. -/
abbrev dE (adj : IVec S1024x1024 32) (j : Fin 1024) : EReal := ((dinvR (colSum adj j) : ℝ) : EReal)

theorem norm_pair (adj : IVec S1024x1024 32) (i j : Fin 1024) :
    RefTerm.norm (F := Ideal) adj (ix1 (pe i j)) = (dE adj i * dE adj j) * ((ind (adj (ix2 i j)) : ℝ) : EReal) := by
  unfold RefTerm.norm
  rw [mulf_apply, mulf_apply,
    vecGather_host (by decide) gather_S1024_S1049600x1_S1049600_n_0_n_n_0_1_1 gather_S1024_S1049600x1_S1049600_n_0_n_n_0_1_1_wf rfl,
    vecGather_host (by decide) gather_S1024_S1049600x1_S1049600_n_0_n_n_0_1_1 gather_S1024_S1049600x1_S1049600_n_0_n_n_0_1_1_wf rfl,
    wrapCol_apply, wrapCol_apply, srcW_pair, dstW_pair, wrap_row, wrap_row, dinv_apply, dinv_apply, edgeW_pair, test_w]

theorem norm_loop (adj : IVec S1024x1024 32) (i : Fin 1024) :
    RefTerm.norm (F := Ideal) adj (ix1 (le i)) = (dE adj i * dE adj i) * ((1 : ℝ) : EReal) := by
  unfold RefTerm.norm
  rw [mulf_apply, mulf_apply,
    vecGather_host (by decide) gather_S1024_S1049600x1_S1049600_n_0_n_n_0_1_1 gather_S1024_S1049600x1_S1049600_n_0_n_n_0_1_1_wf rfl,
    vecGather_host (by decide) gather_S1024_S1049600x1_S1049600_n_0_n_n_0_1_1 gather_S1024_S1049600x1_S1049600_n_0_n_n_0_1_1_wf rfl,
    wrapCol_apply, wrapCol_apply, srcW_loop, dstW_loop, wrap_row, dinv_apply, edgeW_loop, one_w]

/-- An edge's message at feature q: its normalised weight times its source's row of h. -/
theorem msgs_at (x : FVec Ideal S4x256x128 .f32) (adj : IVec S1024x1024 32) (W : FVec Ideal S128x128 .f32)
    (e : Fin 1049600) (s : Fin 1024) (hs : srcW (ix1 e) = BitVec.ofNat 32 s.val) (q : Fin 128) :
    msgs x adj W (ix2 e q) = RefTerm.norm (F := Ideal) adj (ix1 e) * hmat x W (ix2 s q) := by
  unfold msgs
  rw [mulf_apply, bcastAlong_apply (by decide), bcastCol_apply (by decide),
    rowGather_host (by decide) gather_S1024x128_S1049600x1_S1049600x128_1_0_n_n_0_1_1128
      gather_S1024x128_S1049600x1_S1049600x128_1_0_n_n_0_1_1128_wf rfl,
    wrapCol_apply, hs, wrap_row]

theorem agg_apply (x : FVec Ideal S4x256x128 .f32) (adj : IVec S1024x1024 32) (W : FVec Ideal S128x128 .f32)
    (p : Fin 1024) (q : Fin 128) :
    agg x adj W (ix2 p q)
      = (0 : EReal) + ((∑ i : Fin 1024, ((dE adj i * dE adj p) * ((ind (adj (ix2 i p)) : ℝ) : EReal)) * hmat x W (ix2 i q))
          + ((dE adj p * dE adj p) * ((1 : ℝ) : EReal)) * hmat x W (ix2 p q)) := by
  unfold agg
  rw [rowScatterAdd_host scatter_S1024x128_S1049600x1_S1049600x128_1_0_0_1
      scatter_S1024x128_S1049600x1_S1049600x128_1_0_0_1_wf rfl, bcastScalar_apply, zero_c, sum_edges hE]
  simp only [wrapCol_apply, dstW_pair, dstW_loop, wrap_lands,
    msgs_at x adj W (pe _ _) _ (srcW_pair _ _), msgs_at x adj W (le _) _ (srcW_loop _), norm_pair, norm_loop]
  rw [sum_entering p (fun i j => ((dE adj i * dE adj j) * ((ind (adj (ix2 i j)) : ℝ) : EReal)) * hmat x W (ix2 i q))
    (fun i => ((dE adj i * dE adj i) * ((1 : ℝ) : EReal)) * hmat x W (ix2 i q))]

theorem lin_apply (x : FVec Ideal S4x256x128 .f32) (adj : IVec S1024x1024 32) (W : FVec Ideal S128x128 .f32)
    (b : FVec Ideal S128 .f32) (p : Fin 1024) (q : Fin 128) :
    lin x adj W b (ix2 p q) = agg x adj W (ix2 p q) + b (ix1 q) := by
  unfold lin
  rw [addf_apply, bcastBias_apply (by decide)]

end Cert.ReferenceIdeal.RefReads

end
-- ==== Proof.Bridge.lean ====
/-
  The kernel's stored array, reshaped, is the reference's result, when the input features and the weight matrix hold
  real numbers.  Both programs compute h = x₂ · W by the same sum, so h is real; the scaling d j = 1 / sqrt (c j + 1)
  is real on both sides (c j the number of nonzero entries of adjacency column j).  At an entry (p, q) the kernel holds
      ((Σ_i a(i, p) · (h(i, q) · d i)) + h(p, q) · d p) · d p + b q
  and the reference
      (Σ_i (d i · d p · a(i, p)) · h(i, q) + (d p · d p · 1) · h(p, q)) + b q :
  equal by distributivity over the reals (the bias b q may be any extended real: it is added last on both sides).
  The leaky rectifier is applied entry by entry, by the kernel before the reshape to [4, 256, 128] and by the reference
  after it, which is the same array.
-/
import proofs.«175754_g9603546874456_fold_wed_m_582_2_alg».proof.Proof.KernelReads
import proofs.«175754_g9603546874456_fold_wed_m_582_2_alg».proof.Proof.RefReads

noncomputable section

open scoped BigOperators

namespace Cert.Proof.Bridge

open Idealize.ShloMosaic Idealize.ShloMosaic.ValueIdx Cert.LayerLaw Cert.ScalarLaws Cert.Gcn
open Cert.KernelIdeal.KernelReads

/-- The features are real when the inputs are: a finite sum of products of reals. -/
theorem feat_real (x2 : FVec Ideal Cert.KernelIdeal.S1024x128 .f32) (W : FVec Ideal Cert.KernelIdeal.S128x128 .f32)
    (hx : ∀ i, ∃ r : ℝ, x2 i = ((r : ℝ) : EReal)) (hW : ∀ i, ∃ r : ℝ, W i = ((r : ℝ) : EReal)) :
    ∃ hr : Fin 1024 → Fin 128 → ℝ, ∀ i q, feat x2 W (ix2 i q) = ((hr i q : ℝ) : EReal) := by
  choose xr hxr using hx
  choose wr hwr using hW
  refine ⟨fun i q => ∑ k : Fin 128, xr (ix2 i k) * wr (ix2 k q), fun i q => ?_⟩
  rw [feat_apply, coe_sum]
  refine Finset.sum_congr rfl fun k _ => ?_
  rw [hxr, hwr, EReal.coe_mul]

/-- Both programs' features are one sum. -/
theorem hmat_eq_feat (x : FVec Ideal Cert.ReferenceIdeal.S4x256x128 .f32) (W : FVec Ideal Cert.ReferenceIdeal.S128x128 .f32)
    (i : Fin 1024) (q : Fin 128) :
    Cert.ReferenceIdeal.RefTerm.hmat x W (ix2 i q)
      = feat (shapeCast Cert.KernelIdeal.S1024x128 x Cert.KernelIdeal.Gen.shapeCasts_S4x256x128_S1024x128) W (ix2 i q) := by
  rw [Cert.ReferenceIdeal.RefReads.hmat_apply, feat_apply]

/-- The layer before its activation: the two programs agree at every entry. -/
theorem pre_eq (x : FVec Ideal Cert.ReferenceIdeal.S4x256x128 .f32) (adj : IVec Cert.ReferenceIdeal.S1024x1024 32)
    (W : FVec Ideal Cert.ReferenceIdeal.S128x128 .f32) (b : FVec Ideal Cert.ReferenceIdeal.S128 .f32)
    (hx : ∀ i, ∃ r : ℝ, x i = ((r : ℝ) : EReal)) (hW : ∀ i, ∃ r : ℝ, W i = ((r : ℝ) : EReal))
    (p : Fin 1024) (q : Fin 128) :
    pre adj (shapeCast Cert.KernelIdeal.S1024x128 x Cert.KernelIdeal.Gen.shapeCasts_S4x256x128_S1024x128) W
        (shapeCast Cert.KernelIdeal.S1x128 b Cert.KernelIdeal.Gen.shapeCasts_S128_S1x128) (ix2 p q)
      = Cert.ReferenceIdeal.RefTerm.lin x adj W b (ix2 p q) := by
  obtain ⟨hr, hhr⟩ := feat_real (shapeCast Cert.KernelIdeal.S1024x128 x Cert.KernelIdeal.Gen.shapeCasts_S4x256x128_S1024x128) W
    (fun i => hx _) hW
  rw [pre_apply, Cert.ReferenceIdeal.RefReads.lin_apply, Cert.ReferenceIdeal.RefReads.agg_apply, zero_add]
  simp only [hmat_eq_feat, hhr]
  refine congrArg₂ (· + ·) ?_ (reshapeRow_apply _ b q)
  exact layer_law (fun i => ind (adj (ix2 i p))) (fun i => hr i q) (fun i => dinvR (colSum adj i)) (hr p q)
    (dinvR (colSum adj p))

/-- The rectifier entry by entry commutes with the reshape to [4, 256, 128]. -/
theorem leaky_reshape (L : FVec Ideal Cert.KernelIdeal.S1024x128 .f32) :
    shapeCast Cert.KernelIdeal.S4x256x128
        (select (cmpf .oge L (broadcast Cert.KernelIdeal.S1024x128 (Scalar.ofBits (F := Ideal) .f32 0x00000000#32))) L
          (mulf (broadcast Cert.KernelIdeal.S1024x128 (Scalar.ofBits (F := Ideal) .f32 0x3C23D70A#32)) L))
        Cert.KernelIdeal.Gen.shapeCasts_S1024x128_S4x256x128
      = Cert.ReferenceIdeal.RefTerm.leaky
          (shapeCast Cert.ReferenceIdeal.S4x256x128 L Cert.ReferenceIdeal.Gen.shapeCasts_S1024x128_S4x256x128) := by
  funext j
  rfl

/-- THE BRIDGE: the kernel's stored value of the reshaped arguments, reshaped, is the reference's result. -/
theorem result_eq (x : FVec Ideal Cert.ReferenceIdeal.S4x256x128 .f32) (adj : IVec Cert.ReferenceIdeal.S1024x1024 32)
    (W : FVec Ideal Cert.ReferenceIdeal.S128x128 .f32) (b : FVec Ideal Cert.ReferenceIdeal.S128 .f32)
    (hx : ∀ i, ∃ r : ℝ, x i = ((r : ℝ) : EReal)) (hW : ∀ i, ∃ r : ℝ, W i = ((r : ℝ) : EReal)) :
    shapeCast Cert.KernelIdeal.S4x256x128
        (Cert.KernelIdeal.Gen.k0_pay1 (F := Ideal) adj
          (shapeCast Cert.KernelIdeal.S1024x128 x Cert.KernelIdeal.Gen.shapeCasts_S4x256x128_S1024x128) W
          (shapeCast Cert.KernelIdeal.S1x128 b Cert.KernelIdeal.Gen.shapeCasts_S128_S1x128))
        Cert.KernelIdeal.Gen.shapeCasts_S1024x128_S4x256x128
      = Cert.ReferenceIdeal.RefTerm.out (F := Ideal) x adj W b := by
  have hpre : pre adj (shapeCast Cert.KernelIdeal.S1024x128 x Cert.KernelIdeal.Gen.shapeCasts_S4x256x128_S1024x128) W
        (shapeCast Cert.KernelIdeal.S1x128 b Cert.KernelIdeal.Gen.shapeCasts_S128_S1x128)
      = Cert.ReferenceIdeal.RefTerm.lin x adj W b :=
    funext fun j => by rw [eq_ix2 j]; exact pre_eq x adj W b hx hW (j 0) (j 1)
  rw [pay_eq, hpre, leaky_reshape]
  rfl

end Cert.Proof.Bridge

end
-- ==== Proof.lean ====
/-
  The certificate: a dense graph-convolution layer computed by one kernel against the same layer computed from an
  explicit list of all 1024² + 1024 edges.

  With a(i, j) the indicator of a nonzero adjacency entry, c j = Σ_i a(i, j), d j = 1 / sqrt (c j + 1) and h = x₂ · W
  (x₂ the input's 1024 rows), the kernel stores the leaky rectifier of
      ((Σ_i a(i, p) · (h(i, q) · d i)) + h(p, q) · d p) · d p + b q
  (two products against the transposed adjacency: the column sums Aᵀ · 1 and the neighbourhood sums Aᵀ · (h · d)), and
  the reference adds up, over the edges entering node p, the edge's normalised weight d (src) · d (dst) · w times row
  src of h, then adds b and applies the same rectifier.  On real features the two are equal by distributivity; the
  precondition makes x and W real, so h is real, and d is real because every degree is at least 1 (the self-loop).

  The three frames: the two kernel programs' are the generated frame certificates; the reference has no kernel, and its
  frame is its run with the result dropped.  The idealization rewrote nothing, so `preserves` is `True`.  The
  algebraic conjunct puts the kernel's run (its result read off the frame run through the reshapes around the region)
  beside the reference's run, from memories agreeing on the arguments.
-/
import proofs.«175754_g9603546874456_fold_wed_m_582_2_alg».proof.Defs
import proofs.«175754_g9603546874456_fold_wed_m_582_2_alg».proof.Proof.Gen.Kernel
import proofs.«175754_g9603546874456_fold_wed_m_582_2_alg».proof.Proof.Gen.Kernel.Skeleton
import proofs.«175754_g9603546874456_fold_wed_m_582_2_alg».proof.Proof.Gen.Kernel.Launch
import proofs.«175754_g9603546874456_fold_wed_m_582_2_alg».proof.Proof.Gen.Kernel.Points
import proofs.«175754_g9603546874456_fold_wed_m_582_2_alg».proof.Proof.Gen.Kernel.Frame
import proofs.«175754_g9603546874456_fold_wed_m_582_2_alg».proof.Proof.Gen.KernelIdeal
import proofs.«175754_g9603546874456_fold_wed_m_582_2_alg».proof.Proof.Gen.KernelIdeal.Skeleton
import proofs.«175754_g9603546874456_fold_wed_m_582_2_alg».proof.Proof.Gen.KernelIdeal.Launch
import proofs.«175754_g9603546874456_fold_wed_m_582_2_alg».proof.Proof.Gen.KernelIdeal.Points
import proofs.«175754_g9603546874456_fold_wed_m_582_2_alg».proof.Proof.Gen.KernelIdeal.Frame
import proofs.«175754_g9603546874456_fold_wed_m_582_2_alg».proof.Proof.Gen.ReferenceIdeal
import proofs.«175754_g9603546874456_fold_wed_m_582_2_alg».proof.Proof.Gen.Pre_finite_inputs
import proofs.«175754_g9603546874456_fold_wed_m_582_2_alg».proof.Proof.KernelValue
import proofs.«175754_g9603546874456_fold_wed_m_582_2_alg».proof.Proof.FiniteInputs
import proofs.«175754_g9603546874456_fold_wed_m_582_2_alg».proof.Proof.RefRun
import proofs.«175754_g9603546874456_fold_wed_m_582_2_alg».proof.Proof.Bridge
import Idealize.ShloMosaic.Adequacy
import Idealize.ShloMosaic.Init

noncomputable section

namespace Cert.Proof

open Idealize.ShloMosaic Idealize.SL.Sem

/-- The kernel as printed runs and leaves its arguments as they were. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and leaves its arguments as they were: its run, the result forgotten. -/
theorem frame_ri : Cert.frame_ReferenceIdeal := fun m ρ _ =>
  (θ_run Cert.ReferenceIdeal.defs _ _).mono (fun _ h c => (h c).2) (Cert.ReferenceIdeal.RefRun.run (F := Ideal) m ρ)

/-- The idealization rewrote no operation. -/
theorem preserves : Cert.preserves_Kernel_KernelIdeal := trivial

/-- From memories agreeing on the arguments the two idealized programs end with one result: the kernel's stored
    array reshaped, which on real features and weights is the reference's edge-list layer. -/
theorem algebraic : Cert.algebraic_KernelIdeal_ReferenceIdeal := by
  intro m ρ m' ρ' hpre hagree
  refine ⟨_, Cert.KernelIdeal.KernelValue.run (F := Ideal) m ρ, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2.1, (hagree c).2.2.1, (hagree c).2.2.2]
  obtain ⟨hx, hW, -⟩ := Cert.Proof.FiniteInputs.real_of_pre m hpre c
  exact (Cert.Proof.Bridge.result_eq _ _ _ _ hx hW).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
